-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x400000 32) (main_arg2 : FVec F S128x128 .f32) (main_arg3 : FVec F S128 .f32) (main_arg4 : FVec F S256x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x128 : Shape := ⟨2, ![50000, 128]⟩
abbrev S2x400000 : Shape := ⟨2, ![2, 400000]⟩
abbrev S128x128 : Shape := ⟨2, ![128, 128]⟩
abbrev S128 : Shape := ⟨1, ![128]⟩
abbrev S256x128 : Shape := ⟨2, ![256, 128]⟩
abbrev S1x400000 : Shape := ⟨2, ![1, 400000]⟩
abbrev S400000 : Shape := ⟨1, ![400000]⟩
abbrev S128x256 : Shape := ⟨2, ![128, 256]⟩
abbrev S50000x256 : Shape := ⟨2, ![50000, 256]⟩
abbrev S5000x128 : Shape := ⟨2, ![5000, 128]⟩
abbrev S5000x256 : Shape := ⟨2, ![5000, 256]⟩
abbrev S_ : Shape := ⟨0, ![]⟩
abbrev S400000x1 : Shape := ⟨2, ![400000, 1]⟩
abbrev S400000x128 : Shape := ⟨2, ![400000, 128]⟩
abbrev S50000x1 : Shape := ⟨2, ![50000, 1]⟩
abbrev S1x128 : Shape := ⟨2, ![1, 128]⟩
abbrev S5000 : Shape := ⟨1, ![5000]⟩
abbrev S5000x1 : Shape := ⟨2, ![5000, 1]⟩

abbrev nBuf : Space → Nat
  | .hbm => 73
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S128x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S1x400000, .i32⟩
  | .hbm, ⟨7, _⟩ => ⟨S400000, .i32⟩
  | .hbm, ⟨8, _⟩ => ⟨S1x400000, .i32⟩
  | .hbm, ⟨9, _⟩ => ⟨S400000, .i32⟩
  | .hbm, ⟨10, _⟩ => ⟨S128x128, .f32⟩
  | .hbm, ⟨11, _⟩ => ⟨S128x128, .f32⟩
  | .hbm, ⟨12, _⟩ => ⟨S128x256, .f32⟩
  | .hbm, ⟨13, _⟩ => ⟨S50000x256, .f32⟩
  | .hbm, ⟨14, _⟩ => ⟨S50000x128, .f32⟩
  | .hbm, ⟨15, _⟩ => ⟨S50000x128, .f32⟩
  | .hbm, ⟨16, _⟩ => ⟨S_, .i32⟩
  | .hbm, ⟨17, _⟩ => ⟨S400000, .i32⟩
  | .hbm, ⟨18, _⟩ => ⟨S400000, .i1⟩
  | .hbm, ⟨19, _⟩ => ⟨S_, .i32⟩
  | .hbm, ⟨20, _⟩ => ⟨S400000, .i32⟩
  | .hbm, ⟨21, _⟩ => ⟨S400000, .i32⟩
  | .hbm, ⟨22, _⟩ => ⟨S400000, .i32⟩
  | .hbm, ⟨23, _⟩ => ⟨S400000x1, .i32⟩
  | .hbm, ⟨24, _⟩ => ⟨S400000x128, .f32⟩
  | .hbm, ⟨25, _⟩ => ⟨S_, .f32⟩
  | .hbm, ⟨26, _⟩ => ⟨S50000x128, .f32⟩
  | .hbm, ⟨27, _⟩ => ⟨S400000x1, .i32⟩
  | .hbm, ⟨28, _⟩ => ⟨S50000x128, .f32⟩
  | .hbm, ⟨29, _⟩ => ⟨S_, .f32⟩
  | .hbm, ⟨30, _⟩ => ⟨S400000x1, .f32⟩
  | .hbm, ⟨31, _⟩ => ⟨S_, .f32⟩
  | .hbm, ⟨32, _⟩ => ⟨S50000x1, .f32⟩
  | .hbm, ⟨33, _⟩ => ⟨S400000x1, .i32⟩
  | .hbm, ⟨34, _⟩ => ⟨S50000x1, .f32⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S400000, .i32⟩
  | .hbm, ⟨49, _⟩ => ⟨S400000, .i1⟩
  | .hbm, ⟨50, _⟩ => ⟨S_, .i32⟩
  | .hbm, ⟨51, _⟩ => ⟨S400000, .i32⟩
  | .hbm, ⟨52, _⟩ => ⟨S400000, .i32⟩
  | .hbm, ⟨53, _⟩ => ⟨S400000, .i32⟩
  | .hbm, ⟨54, _⟩ => ⟨S400000x1, .i32⟩
  | .hbm, ⟨55, _⟩ => ⟨S400000x128, .f32⟩
  | .hbm, ⟨56, _⟩ => ⟨S_, .f32⟩
  | .hbm, ⟨57, _⟩ => ⟨S50000x128, .f32⟩
  | .hbm, ⟨58, _⟩ => ⟨S400000x1, .i32⟩
  | .hbm, ⟨59, _⟩ => ⟨S50000x128, .f32⟩
  | .hbm, ⟨60, _⟩ => ⟨S_, .f32⟩
  | .hbm, ⟨61, _⟩ => ⟨S400000x1, .f32⟩
  | .hbm, ⟨62, _⟩ => ⟨S_, .f32⟩
  | .hbm, ⟨63, _⟩ => ⟨S50000x1, .f32⟩
  | .hbm, ⟨64, _⟩ => ⟨S400000x1, .i32⟩
  | .hbm, ⟨65, _⟩ => ⟨S50000x1, .f32⟩
  | .hbm, ⟨66, _⟩ => ⟨S_, .f32⟩
  | .hbm, ⟨67, _⟩ => ⟨S50000x1, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  slices_S256x128_S128x128_0_0 : S256x128.Slices ![0, 0] S128x128
  slices_S256x128_S128x128_128_0 : S256x128.Slices ![128, 0] S128x128
  concatenates_S128x128_S128x128_S128x256_d1 : Shape.Concatenates [S128x128, S128x128] S128x256 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  slices_S50000x256_S50000x128_0_0 : S50000x256.Slices ![0, 0] S50000x128
  slices_S50000x256_S50000x128_0_128 : S50000x256.Slices ![0, 128] S50000x128
  bcast_S_S400000 : S_.BroadcastsInDim S400000 (![] : Fin 0 → Fin S400000.rank)
  bcast_S400000_S400000x1_0 : S400000.BroadcastsInDim S400000x1 (![0] : Fin 1 → Fin S400000x1.rank)
  bcast_S_S50000x128 : S_.BroadcastsInDim S50000x128 (![] : Fin 0 → Fin S50000x128.rank)
  bcast_S_S400000x1 : S_.BroadcastsInDim S400000x1 (![] : Fin 0 → Fin S400000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  shapeCasts_S128_S1x128 : S128.ShapeCasts S1x128
  bcast_S1x128_S50000x128_0_1 : S1x128.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  dot_S5000x128_S128x256_S5000x256_1_0_0_1_n_n_wf : DotDims.WF S5000x128 S128x256 S5000x256 [1] [0] [0] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  scatter_S50000x1_S400000x1_S400000x1_1_0_0_1_wf : ScatterDims.WF S50000x1 S400000x1 S400000x1 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v9) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S128x128 : Shape := ⟨2, ![128, 128]⟩
abbrev S128 : Shape := ⟨1, ![128]⟩
abbrev S256x128 : Shape := ⟨2, ![256, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S50000x1 : Shape := ⟨2, ![50000, 1]⟩
abbrev S1x128 : Shape := ⟨2, ![1, 128]⟩
abbrev S50000x256 : Shape := ⟨2, ![50000, 256]⟩
abbrev S50000 : Shape := ⟨1, ![50000]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S128x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S1x400000, .i32⟩
  | .hbm, ⟨7, _⟩ => ⟨S400000, .i32⟩
  | .hbm, ⟨8, _⟩ => ⟨S1x400000, .i32⟩
  | .hbm, ⟨9, _⟩ => ⟨S400000, .i32⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S400000x1, .i32⟩
  | .hbm, ⟨18, _⟩ => ⟨S400000x128, .f32⟩
  | .hbm, ⟨19, _⟩ => ⟨S_, .f32⟩
  | .hbm, ⟨20, _⟩ => ⟨S50000x128, .f32⟩
  | .hbm, ⟨21, _⟩ => ⟨S400000x1, .i32⟩
  | .hbm, ⟨22, _⟩ => ⟨S50000x128, .f32⟩
  | .hbm, ⟨23, _⟩ => ⟨S_, .f32⟩
  | .hbm, ⟨24, _⟩ => ⟨S400000x1, .f32⟩
  | .hbm, ⟨25, _⟩ => ⟨S_, .f32⟩
  | .hbm, ⟨26, _⟩ => ⟨S50000x1, .f32⟩
  | .hbm, ⟨27, _⟩ => ⟨S400000x1, .i32⟩
  | .hbm, ⟨28, _⟩ => ⟨S50000x1, .f32⟩
  | .hbm, ⟨29, _⟩ => ⟨S_, .f32⟩
  | .hbm, ⟨30, _⟩ => ⟨S50000x1, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S_, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S400000, .i32⟩
  | .hbm, ⟨43, _⟩ => ⟨S400000, .i1⟩
  | .hbm, ⟨44, _⟩ => ⟨S_, .i32⟩
  | .hbm, ⟨45, _⟩ => ⟨S400000, .i32⟩
  | .hbm, ⟨46, _⟩ => ⟨S400000, .i32⟩
  | .hbm, ⟨47, _⟩ => ⟨S400000, .i32⟩
  | .hbm, ⟨48, _⟩ => ⟨S400000x1, .i32⟩
  | .hbm, ⟨49, _⟩ => ⟨S400000x128, .f32⟩
  | .hbm, ⟨50, _⟩ => ⟨S_, .f32⟩
  | .hbm, ⟨51, _⟩ => ⟨S50000x128, .f32⟩
  | .hbm, ⟨52, _⟩ => ⟨S400000x1, .i32⟩
  | .hbm, ⟨53, _⟩ => ⟨S50000x128, .f32⟩
  | .hbm, ⟨54, _⟩ => ⟨S_, .f32⟩
  | .hbm, ⟨55, _⟩ => ⟨S400000x1, .f32⟩
  | .hbm, ⟨56, _⟩ => ⟨S_, .f32⟩
  | .hbm, ⟨57, _⟩ => ⟨S50000x1, .f32⟩
  | .hbm, ⟨58, _⟩ => ⟨S400000x1, .i32⟩
  | .hbm, ⟨59, _⟩ => ⟨S50000x1, .f32⟩
  | .hbm, ⟨60, _⟩ => ⟨S_, .f32⟩
  | .hbm, ⟨61, _⟩ => ⟨S50000x1, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S50000x256, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000, .f32⟩
  | .hbm, ⟨73, _⟩ => ⟨S50000x1, .f32⟩
  | .hbm, ⟨74, _⟩ => ⟨S50000x1, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_cst : Ref sig .tc := ⟨.hbm, 38, rfl⟩
abbrev main_call0_v0 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_v0 : Ref sig .tc := ⟨.hbm, 70, rfl⟩
abbrev main_call1_cst : Ref sig .tc := ⟨.hbm, 71, rfl⟩
abbrev main_call1_v1 : Ref sig .tc := ⟨.hbm, 72, rfl⟩
abbrev main_call1_v2 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x128 : S_.BroadcastsInDim S50000x128 (![] : Fin 0 → Fin S50000x128.rank)
  bcast_S_S400000x1 : S_.BroadcastsInDim S400000x1 (![] : Fin 0 → Fin S400000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  reducesTo_S50000x128_S50000_d1 : S50000x128.ReducesTo [1] S50000
  h_S_ : 0 < S_.numel
  bcast_S50000_S50000x1_0 : S50000.BroadcastsInDim S50000x1 (![0] : Fin 1 → Fin S50000x1.rank)
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  scatter_S50000x1_S400000x1_S400000x1_1_0_0_1_wf : ScatterDims.WF S50000x1 S400000x1 S400000x1 [1] [0] [0] 1
  dot_S50000x128_S128x128_S50000x128_1_0_0_1_n_n_wf : DotDims.WF S50000x128 S128x128 S50000x128 [1] [0] [0] [1] [] []
  dot_S50000x256_S256x128_S50000x128_1_0_0_1_n_n_wf : DotDims.WF S50000x256 S256x128 S50000x128 [1] [0] [0] [1] [] []

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel program's run with its result named.

  The program is three row-tiled kernel regions among stretches of host operations. Every weakly fair execution
  terminates, faults nowhere, leaves the six argument arrays as launched, and leaves in the result buffer what the
  fold through the program's segments computes for it: the third region's output array as that region's write-backs
  leave it, the region having been entered with the buffers at what the earlier segments left.
-/
import proofs.«112294_j10376640987275_2_alg».proof.Proof.Gen.KernelIdeal.Frame

set_option maxRecDepth 16384

noncomputable section

namespace Cert.HyperConv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last segment boundary's contents, the arguments as launched. -/
theorem kernel_run : θ_run defs (onTc (τ := τ) (main (F := F))) ⟨m, fun _ => 0, ρ⟩ (fun r => ∀ c : Dev nD,
      r.2.mem ((c.tc : Thread nD τ).loc main_v52) = W7 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v52 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.HyperConv

end
-- ==== Proof.Stages.lean ====
/-
  The stages of a hypergraph convolution, as functions of whole arrays over the extended reals.

  An incidence list pairs a hyperedge id with a node id, one word each per incidence. A segment mean gathers one row
  per incidence from a table of rows (the row named by one id, a negative id counted from the end), adds the gathered
  rows up per value of the other id, and divides each total by the number of incidences that carry that id, at least
  one. The reference takes the segment mean of the node features over hyperedges, applies a dense layer with a rectifier,
  takes the segment mean of the result over nodes, joins it to the node features, applies a second dense layer, and
  divides every row by its Euclidean norm. The stages are spelt with the reference program's own shape witnesses, so that
  the reference's composed term is their composition by definition.
-/
import proofs.«112294_j10376640987275_2_alg».proof.Proof.Gen.ReferenceIdeal.Run
import Idealize.ShloMosaic.PureOps.Ideal

noncomputable section

namespace Cert.HyperConv

open Cert.ReferenceIdeal Idealize.ShloMosaic Idealize.ShloMosaic.TcCoe Idealize.SL.Sem

variable [Facts₀]
open Facts₀

/-- Rows: one row of 128 entries per node or per hyperedge. -/
abbrev Rows := FVec Ideal S50000x128 .f32
/-- One row of 128 entries per incidence. -/
abbrev IncRows := FVec Ideal S400000x128 .f32
/-- The incidence list: row 0 the hyperedge ids, row 1 the node ids. -/
abbrev Incidence := IVec S2x400000 32
/-- One id per incidence. -/
abbrev Ids := IVec S400000 32
/-- One id per incidence, carried with a trailing unit axis. -/
abbrev IdCol := IVec S400000x1 32

/-- The hyperedge id of every incidence. -/
def edgeIds (a : Incidence) : Ids :=
  shapeCast _ (extractStridedSlice S1x400000 ![0, 0] a slices_S2x400000_S1x400000_0_0) shapeCasts_S1x400000_S400000

/-- The node id of every incidence. -/
def nodeIds (a : Incidence) : Ids :=
  shapeCast _ (extractStridedSlice S1x400000 ![1, 0] a slices_S2x400000_S1x400000_1_0) shapeCasts_S1x400000_S400000

/-- The ids as a column. -/
def idCol (v : Ids) : IdCol := broadcastInDim S400000x1 ![0] bcast_S400000_S400000x1_0 v

/-- The ids as a column, a negative id counted from the end of the table of 50000 rows. -/
def wrapCol (v : Ids) : IdCol :=
  broadcastInDim S400000x1 ![0] bcast_S400000_S400000x1_0
    (select (cmpi .slt v (broadcastInDim S400000 ![] bcast_S_S400000 (constantI S_ 32 0#32)))
      (addi v (broadcastInDim S400000 ![] bcast_S_S400000 (constantI S_ 32 50000#32))) v)

/-- One row per incidence: the table's row named by the incidence's id. -/
def gatherRows (X : Rows) (v : Ids) : IncRows :=
  Host.gather gather_S50000x128_S400000x1_S400000x128_1_0_n_n_0_1_1128 X (wrapCol v)

/-- The gathered rows added up per id. -/
def segSum (v : Ids) (U : IncRows) : Rows :=
  Host.scatterAdd scatter_S50000x128_S400000x1_S400000x128_1_0_0_1
    (broadcastInDim S50000x128 ![] bcast_S_S50000x128 (constant S_ .f32 0x00000000#32)) (idCol v) U

/-- The number of incidences carrying each id, at least one. -/
def segCount (v : Ids) : FVec Ideal S50000x1 .f32 :=
  maximumf
    (Host.scatterAdd scatter_S50000x1_S400000x1_S400000x1_1_0_0_1
      (broadcastInDim S50000x1 ![] bcast_S_S50000x1 (constant S_ .f32 0x00000000#32)) (idCol v)
      (broadcastInDim S400000x1 ![] bcast_S_S400000x1 (constant S_ .f32 0x3F800000#32)))
    (broadcastInDim S50000x1 ![] bcast_S_S50000x1 (constant S_ .f32 0x3F800000#32))

/-- The segment mean: totals per id over counts per id. -/
def segMean (v : Ids) (U : IncRows) : Rows :=
  Host.divf (segSum v U) (broadcastInDim S50000x128 ![0, 1] bcast_S50000x1_S50000x128_0_1 (segCount v))

/-- Every entry cut off below at zero. -/
def rectify (X : Rows) : Rows :=
  maximumf X (broadcastInDim S50000x128 ![] bcast_S_S50000x128 (constant S_ .f32 0x00000000#32))

/-- A vector of 128 entries as every row of a table. -/
def biasRows (b : FVec Ideal S128 .f32) : Rows :=
  broadcastInDim S50000x128 ![0, 1] bcast_S1x128_S50000x128_0_1 (broadcastInDim S1x128 ![1] bcast_S128_S1x128_1 b)

/-- The first dense layer with its rectifier. -/
def edgeLayer (X : Rows) (W : FVec Ideal S128x128 .f32) (b : FVec Ideal S128 .f32) : Rows :=
  rectify (addf (Host.dotGeneral dot_S50000x128_S128x128_S50000x128_1_0_0_1_n_n none X W) (biasRows b))

/-- The second dense layer, on the node features joined to the aggregated hyperedge features. -/
def nodeLayer (X Y : Rows) (W : FVec Ideal S256x128 .f32) (b : FVec Ideal S128 .f32) : Rows :=
  addf (Host.dotGeneral dot_S50000x256_S256x128_S50000x128_1_0_0_1_n_n none
      (concatenate S50000x256 1 [⟨S50000x128, X⟩, ⟨S50000x128, Y⟩] concatenates_S50000x128_S50000x128_S50000x256_d1) W)
    (biasRows b)

/-- Every row divided by its Euclidean norm. -/
def unitRows (X : Rows) : Rows :=
  Host.divf X (broadcastInDim S50000x128 ![0, 1] bcast_S50000x1_S50000x128_0_1
    (Host.sqrt (broadcastInDim S50000x1 ![0] bcast_S50000_S50000x1_0
      (Host.reduceAdd (mulf X X) (constant S_ .f32 0x00000000#32) reducesTo_S50000x128_S50000_d1 h_S_))))

/-- The hyperedge features: segment mean of the node features over hyperedges, then the first layer. -/
def edgeFeats (x : Rows) (a : Incidence) (We : FVec Ideal S128x128 .f32)
    (be : FVec Ideal S128 .f32) : Rows :=
  edgeLayer (segMean (edgeIds a) (gatherRows x (nodeIds a))) We be

/-- The reference's result before the rows are normalized. -/
def refOut (x : Rows) (a : Incidence) (We : FVec Ideal S128x128 .f32)
    (be : FVec Ideal S128 .f32) (Wn : FVec Ideal S256x128 .f32)
    (bn : FVec Ideal S128 .f32) : Rows :=
  nodeLayer x (segMean (nodeIds a) (gatherRows (edgeFeats x a We be) (edgeIds a))) Wn bn

end Cert.HyperConv

namespace Cert.HyperConv

open Cert.ReferenceIdeal Cert.ReferenceIdeal.Gen Idealize.ShloMosaic Idealize.ShloMosaic.TcCoe Idealize.SL.Sem

variable [Cert.ReferenceIdeal.Facts]

set_option maxRecDepth 16384 in
/-- The reference's composed term is the composition of the stages. -/
theorem ref_value (m : (ℓ : Loc nD τ sig) → Buf (Elt Ideal) ℓ) (c : Dev nD) :
    Cert.ReferenceIdeal.Value.res_main_v52 (F := Ideal) m c
      = unitRows (refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))) := by
  unfold Cert.ReferenceIdeal.Value.res_main_v52 unitRows refOut nodeLayer edgeFeats edgeLayer rectify biasRows segMean segCount segSum
    gatherRows wrapCol idCol edgeIds nodeIds
  rfl

end Cert.HyperConv

end
-- ==== Proof.LibRows.lean ====
/-
  Gathering rows by an index array and accumulating rows per destination, read at an index, for any sizes.

  A gather of rows: the operand has N rows of C entries (or N scalar entries), the index array has one word per edge
  (carried with a trailing unit axis), and the result has one row (one entry) per edge: the operand's row at the
  edge's word read as a signed integer and clamped to [0, N - 1].  So a row gather at (e, c) and a flat gather at e,
  given the same index array, read the same row of their operands.

  An accumulating scatter of rows: an update (e, c) lands on the operand's entry (i, c') exactly when the edge's word,
  read as a signed integer and NOT clamped, is i, and c = c'.  In particular a word that lands on row i is
  non-negative and below N, so the clamped read of that same word is i again.
-/
import Idealize.ShloMosaic.PureOps.Ideal
import Idealize.ShloMosaic.Lib.ValueIdx

noncomputable section

namespace Cert.LibRows

open Idealize.ShloMosaic Idealize.ShloMosaic.ValueIdx

variable {N E C w : ℕ}

/-- An edge's word read as a row number for a gather: signed, clamped to the last row. -/
def clampRow (N : ℕ) (x : BitVec w) : ℕ := min x.toInt.toNat (N - 1)

theorem clampRow_lt (hN : 0 < N) (x : BitVec w) : clampRow N x < N := by
  unfold clampRow
  have := Nat.min_le_right x.toInt.toNat (N - 1)
  omega

/-- A word that reads, signed, as a row number below N is its own clamped read. -/
theorem clampRow_of_toInt {x : BitVec w} {i : ℕ} (hi : i < N) (h : x.toInt = (i : Int)) : clampRow N x = i := by
  unfold clampRow
  rw [h, Int.toNat_natCast]
  exact Nat.min_eq_left (by omega)

/-! ## The row gather -/

section RowGather
variable (wfG : GatherDims.WF ⟨2, ![N, C]⟩ ⟨2, ![E, 1]⟩ ⟨2, ![E, C]⟩ [1] [0] [] [0] [] 1 ![1, C])

/-- The row gather's dimension numbers. -/
abbrev rowDims : GatherDims ⟨2, ![N, C]⟩ ⟨2, ![E, 1]⟩ ⟨2, ![E, C]⟩ := ⟨[1], [0], [], [], [0], 1, ![1, C], wfG⟩

theorem row_operandIdx0 (idx : IVec ⟨2, ![E, 1]⟩ w) (e : Fin E) (c : Fin C) :
    (((rowDims wfG).operandIdx (ix2 e c) idx) 0).val = clampRow N (idx (ix2 e 0)) := by
  show (rowDims wfG).start (ix2 e c) idx 0 + (rowDims wfG).batchCoord (ix2 e c) 0 + (rowDims wfG).offCoord (ix2 e c) 0 = _
  have hs : (rowDims wfG).start (ix2 e c) idx 0 = clampRow N (idx (ix2 e 0)) := by
    unfold GatherDims.start clampRow
    rw [dif_pos (by simp)]
    congr 3
    refine congrArg idx (funext fun b => ?_)
    match b with
    | ⟨0, _⟩ => rfl
    | ⟨1, _⟩ => rfl
  have hb : (rowDims wfG).batchCoord (ix2 e c) 0 = 0 := by
    unfold GatherDims.batchCoord
    rw [dif_neg (by simp)]
  have ho : (rowDims wfG).offCoord (ix2 e c) 0 = 0 := by
    unfold GatherDims.offCoord
    rw [dif_neg (by simp [GatherDims.sKept, Shape.kept, List.finRange])]
  rw [hs, hb, ho]
  omega

theorem row_operandIdx1 (idx : IVec ⟨2, ![E, 1]⟩ w) (e : Fin E) (c : Fin C) :
    (((rowDims wfG).operandIdx (ix2 e c) idx) 1).val = c.val := by
  show (rowDims wfG).start (ix2 e c) idx 1 + (rowDims wfG).batchCoord (ix2 e c) 1 + (rowDims wfG).offCoord (ix2 e c) 1 = _
  have hs : (rowDims wfG).start (ix2 e c) idx 1 = 0 := by
    unfold GatherDims.start
    rw [dif_neg (by simp)]
  have hb : (rowDims wfG).batchCoord (ix2 e c) 1 = 0 := by
    unfold GatherDims.batchCoord
    rw [dif_neg (by simp)]
  have ho : (rowDims wfG).offCoord (ix2 e c) 1 = c.val := by
    unfold GatherDims.offCoord
    rw [dif_pos (by simp [GatherDims.sKept, Shape.kept, List.finRange])]
    rfl
  rw [hs, hb, ho]
  omega

/-- THE ROW GATHER AT AN ENTRY: the operand's row at the edge's clamped word, same column. -/
theorem row_gather_apply {α : Type} (hN : 0 < N) (X : (⟨2, ![N, C]⟩ : Shape).Idx → α) (idx : IVec ⟨2, ![E, 1]⟩ w)
    (e : Fin E) (c : Fin C) :
    Host.gather (rowDims wfG) X idx (ix2 e c) = X (ix2 ⟨clampRow N (idx (ix2 e 0)), clampRow_lt hN _⟩ c) := by
  unfold Host.gather
  refine congrArg X (funext fun a => Fin.ext ?_)
  match a with
  | ⟨0, _⟩ => exact row_operandIdx0 wfG idx e c
  | ⟨1, _⟩ => exact row_operandIdx1 wfG idx e c
end RowGather

/-! ## The flat gather -/

section FlatGather
variable (wfg : GatherDims.WF ⟨1, ![N]⟩ ⟨2, ![E, 1]⟩ ⟨1, ![E]⟩ [] [0] [] [0] [] 1 ![1])

/-- The flat gather's dimension numbers. -/
abbrev flatDims : GatherDims ⟨1, ![N]⟩ ⟨2, ![E, 1]⟩ ⟨1, ![E]⟩ := ⟨[], [0], [], [], [0], 1, ![1], wfg⟩

theorem flat_operandIdx0 (idx : IVec ⟨2, ![E, 1]⟩ w) (e : Fin E) :
    (((flatDims wfg).operandIdx (ix1 e) idx) 0).val = clampRow N (idx (ix2 e 0)) := by
  show (flatDims wfg).start (ix1 e) idx 0 + (flatDims wfg).batchCoord (ix1 e) 0 + (flatDims wfg).offCoord (ix1 e) 0 = _
  have hs : (flatDims wfg).start (ix1 e) idx 0 = clampRow N (idx (ix2 e 0)) := by
    unfold GatherDims.start clampRow
    rw [dif_pos (by simp)]
    congr 3
    refine congrArg idx (funext fun b => ?_)
    match b with
    | ⟨0, _⟩ => rfl
    | ⟨1, _⟩ => rfl
  have hb : (flatDims wfg).batchCoord (ix1 e) 0 = 0 := by
    unfold GatherDims.batchCoord
    rw [dif_neg (by simp)]
  have ho : (flatDims wfg).offCoord (ix1 e) 0 = 0 := by
    unfold GatherDims.offCoord
    rw [dif_neg (by simp [GatherDims.sKept, Shape.kept, List.finRange])]
  rw [hs, hb, ho]
  omega

/-- THE FLAT GATHER AT AN ENTRY: the operand's entry at the edge's clamped word. -/
theorem flat_gather_apply {α : Type} (hN : 0 < N) (x : (⟨1, ![N]⟩ : Shape).Idx → α) (idx : IVec ⟨2, ![E, 1]⟩ w) (e : Fin E) :
    Host.gather (flatDims wfg) x idx (ix1 e) = x (ix1 ⟨clampRow N (idx (ix2 e 0)), clampRow_lt hN _⟩) := by
  unfold Host.gather
  refine congrArg x (funext fun a => Fin.ext ?_)
  match a with
  | ⟨0, _⟩ => exact flat_operandIdx0 wfg idx e
end FlatGather

/-! ## The accumulating scatter of rows -/

section RowScatter
variable (wfS : ScatterDims.WF ⟨2, ![N, C]⟩ ⟨2, ![E, 1]⟩ ⟨2, ![E, C]⟩ [1] [0] [0] 1)

/-- The row scatter's dimension numbers. -/
abbrev scatDims : ScatterDims ⟨2, ![N, C]⟩ ⟨2, ![E, 1]⟩ ⟨2, ![E, C]⟩ := ⟨[1], [0], [0], 1, wfS⟩

theorem scat_start0 (idx : IVec ⟨2, ![E, 1]⟩ w) (e : Fin E) (c : Fin C) :
    (scatDims wfS).start (ix2 e c) idx 0 = (idx (ix2 e 0)).toInt := by
  unfold ScatterDims.start
  rw [dif_pos (by simp)]
  congr 2
  funext b
  match b with
  | ⟨0, _⟩ => rfl
  | ⟨1, _⟩ => rfl

theorem scat_window0 (e : Fin E) (c : Fin C) : (scatDims wfS).window (ix2 e c) 0 = 0 := by
  unfold ScatterDims.window
  rw [dif_neg (by simp [ScatterDims.sKept, Shape.kept, List.finRange])]

/-- An update that lands on row i has a destination word that reads, signed, as i. -/
theorem lands_toInt (idx : IVec ⟨2, ![E, 1]⟩ w) (e : Fin E) (c : Fin C) (i : (⟨2, ![N, C]⟩ : Shape).Idx)
    (h : (scatDims wfS).resultIdx? (ix2 e c) idx = some i) : (idx (ix2 e 0)).toInt = ((i 0).val : Int) := by
  unfold ScatterDims.resultIdx? at h
  split at h
  · rename_i hin
    have hi := Option.some.inj h
    have h0 : ((scatDims wfS).start (ix2 e c) idx 0 + ((scatDims wfS).window (ix2 e c) 0 : Int)).toNat = (i 0).val := by
      rw [← hi]
    rw [scat_start0, scat_window0, Nat.cast_zero, add_zero] at h0
    have hnn := (hin 0).1
    rw [scat_start0, scat_window0, Nat.cast_zero, add_zero] at hnn
    rw [← h0, Int.toNat_of_nonneg hnn]
  · cases h

/-- So the clamped read of that same word is row i. -/
theorem lands_clampRow (idx : IVec ⟨2, ![E, 1]⟩ w) (e : Fin E) (c : Fin C) (i : (⟨2, ![N, C]⟩ : Shape).Idx)
    (h : (scatDims wfS).resultIdx? (ix2 e c) idx = some i) : clampRow N (idx (ix2 e 0)) = (i 0).val :=
  clampRow_of_toInt (i 0).isLt (lands_toInt wfS idx e c i h)
end RowScatter

end Cert.LibRows

end
-- ==== Proof.LibDegree.lean ====
/-
  Counting edges per node, flat or as a column.

  An accumulating scatter adds, to each entry of its operand, the update values whose computed position is that entry;
  the position of an update is, on every operand axis, a start read off the index array plus the update's own window
  coordinate.  Two layouts of one count are compared: one value per edge scattered into a flat array with one entry
  per node, and the same values carried with a trailing axis of size one scattered into an array with one row of one
  entry per node.  In both the only start is the edge's destination index on the node axis and every window
  coordinate is zero, so an edge lands on node i exactly when its destination index is i (an index outside the array
  lands nowhere), and the two arrays agree entry by entry.
-/
import Idealize.ShloMosaic.PureOps.Ideal
import Idealize.ShloMosaic.Lib.ValueIdx

noncomputable section

namespace Cert.Sage

open Idealize.ShloMosaic Idealize.ShloMosaic.ValueIdx

/-- An update lands on the operand element i exactly when, on every axis, its start plus its window coordinate is
    i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      show _ = (((d.start j idx a + (d.window j a : Int)).toNat : ℕ) : Int)
      rw [Int.toNat_of_nonneg (h a).1]
    · intro hi
      funext a
      apply Fin.ext
      show (d.start j idx a + (d.window j a : Int)).toNat = (i a).val
      rw [hi a]; rfl
  · rename_i h
    constructor
    · intro h'; cases h'
    · intro hi
      exact absurd (fun a => by rw [hi a]; exact ⟨Int.natCast_nonneg _, by exact_mod_cast (i a).isLt⟩) h

variable {N E w : ℕ}

section Flat
variable (wf1 : ScatterDims.WF ⟨1, ![N]⟩ ⟨2, ![E, 1]⟩ ⟨1, ![E]⟩ [] [0] [0] 1)

theorem flat_start (idx : IVec ⟨2, ![E, 1]⟩ w) (e : Fin E) :
    (⟨[], [0], [0], 1, wf1⟩ : ScatterDims ⟨1, ![N]⟩ ⟨2, ![E, 1]⟩ ⟨1, ![E]⟩).start (ix1 e) idx 0 = (idx (ix2 e 0)).toInt := by
  unfold ScatterDims.start
  rw [dif_pos (by simp)]
  congr 2
  funext b
  match b with
  | ⟨0, _⟩ => rfl
  | ⟨1, _⟩ => rfl

theorem flat_window (e : Fin E) :
    (⟨[], [0], [0], 1, wf1⟩ : ScatterDims ⟨1, ![N]⟩ ⟨2, ![E, 1]⟩ ⟨1, ![E]⟩).window (ix1 e) 0 = 0 := by
  unfold ScatterDims.window
  rw [dif_neg (by simp [ScatterDims.sKept, Shape.kept, List.finRange])]

theorem flat_lands (idx : IVec ⟨2, ![E, 1]⟩ w) (e : Fin E) (i : Fin N) :
    (⟨[], [0], [0], 1, wf1⟩ : ScatterDims ⟨1, ![N]⟩ ⟨2, ![E, 1]⟩ ⟨1, ![E]⟩).resultIdx? (ix1 e) idx = some (ix1 i)
      ↔ (idx (ix2 e 0)).toInt = (i.val : Int) := by
  rw [resultIdx?_eq_some_iff]
  constructor
  · intro h
    have h0 := h 0
    rw [flat_start, flat_window, Nat.cast_zero, add_zero] at h0
    exact h0
  · intro h a
    match a with
    | ⟨0, _⟩ =>
      show ScatterDims.start _ (ix1 e) idx 0 + ((ScatterDims.window _ (ix1 e) 0 : ℕ) : Int) = _
      rw [flat_start, flat_window, h]; simp
end Flat

section Col
variable (wf2 : ScatterDims.WF ⟨2, ![N, 1]⟩ ⟨2, ![E, 1]⟩ ⟨2, ![E, 1]⟩ [1] [0] [0] 1)

theorem col_start0 (idx : IVec ⟨2, ![E, 1]⟩ w) (e : Fin E) :
    (⟨[1], [0], [0], 1, wf2⟩ : ScatterDims ⟨2, ![N, 1]⟩ ⟨2, ![E, 1]⟩ ⟨2, ![E, 1]⟩).start (ix2 e 0) idx 0 = (idx (ix2 e 0)).toInt := by
  unfold ScatterDims.start
  rw [dif_pos (by simp)]
  congr 2
  funext b
  match b with
  | ⟨0, _⟩ => rfl
  | ⟨1, _⟩ => rfl

theorem col_start1 (idx : IVec ⟨2, ![E, 1]⟩ w) (e : Fin E) :
    (⟨[1], [0], [0], 1, wf2⟩ : ScatterDims ⟨2, ![N, 1]⟩ ⟨2, ![E, 1]⟩ ⟨2, ![E, 1]⟩).start (ix2 e 0) idx 1 = 0 := by
  unfold ScatterDims.start
  rw [dif_neg (by simp)]

theorem col_window0 (e : Fin E) :
    (⟨[1], [0], [0], 1, wf2⟩ : ScatterDims ⟨2, ![N, 1]⟩ ⟨2, ![E, 1]⟩ ⟨2, ![E, 1]⟩).window (ix2 e 0) 0 = 0 := by
  unfold ScatterDims.window
  rw [dif_neg (by simp [ScatterDims.sKept, Shape.kept, List.finRange])]

theorem col_window1 (e : Fin E) :
    (⟨[1], [0], [0], 1, wf2⟩ : ScatterDims ⟨2, ![N, 1]⟩ ⟨2, ![E, 1]⟩ ⟨2, ![E, 1]⟩).window (ix2 e 0) 1 = 0 := by
  unfold ScatterDims.window
  split
  · rfl
  · rfl

theorem col_lands (idx : IVec ⟨2, ![E, 1]⟩ w) (e : Fin E) (i : Fin N) :
    (⟨[1], [0], [0], 1, wf2⟩ : ScatterDims ⟨2, ![N, 1]⟩ ⟨2, ![E, 1]⟩ ⟨2, ![E, 1]⟩).resultIdx? (ix2 e 0) idx = some (ix2 i 0)
      ↔ (idx (ix2 e 0)).toInt = (i.val : Int) := by
  rw [resultIdx?_eq_some_iff]
  constructor
  · intro h
    have h0 := h 0
    rw [col_start0, col_window0, Nat.cast_zero, add_zero] at h0
    exact h0
  · intro h a
    match a with
    | ⟨0, _⟩ =>
      show ScatterDims.start _ (ix2 e 0) idx 0 + ((ScatterDims.window _ (ix2 e 0) 0 : ℕ) : Int) = _
      rw [col_start0, col_window0, h]; simp
    | ⟨1, _⟩ =>
      show ScatterDims.start _ (ix2 e 0) idx 1 + ((ScatterDims.window _ (ix2 e 0) 1 : ℕ) : Int) = _
      rw [col_start1, col_window1]; rfl
end Col

/-- The flat edge indices are the edges. -/
def flatEquiv : (⟨1, ![E]⟩ : Shape).Idx ≃ Fin E where
  toFun j := j 0
  invFun e := ix1 e
  left_inv j := (eq_ix1 j).symm
  right_inv _ := rfl

/-- The edge indices carrying a trailing unit axis are the edges. -/
def colEquiv : (⟨2, ![E, 1]⟩ : Shape).Idx ≃ Fin E where
  toFun j := j 0
  invFun e := ix2 e 0
  left_inv j := by
    funext a
    match a with
    | ⟨0, _⟩ => rfl
    | ⟨1, _⟩ =>
      apply Fin.ext
      have h : (j 1).val < 1 := (j 1).isLt
      show 0 = (j 1).val
      omega
  right_inv _ := rfl

/-- THE DEGREE COUNT, flat or as a column: scattering one value per edge into a flat array of N entries, and
    scattering the same values carried with a trailing unit axis into an N by 1 array, give the same entry at every
    node: both add the values of the edges whose destination index is the node. -/
theorem scatterAdd_flat_eq_col
    (wf1 : ScatterDims.WF ⟨1, ![N]⟩ ⟨2, ![E, 1]⟩ ⟨1, ![E]⟩ [] [0] [0] 1)
    (wf2 : ScatterDims.WF ⟨2, ![N, 1]⟩ ⟨2, ![E, 1]⟩ ⟨2, ![E, 1]⟩ [1] [0] [0] 1)
    (x1 : (⟨1, ![N]⟩ : Shape).Idx → EReal) (x2 : (⟨2, ![N, 1]⟩ : Shape).Idx → EReal)
    (u1 : (⟨1, ![E]⟩ : Shape).Idx → EReal) (u2 : (⟨2, ![E, 1]⟩ : Shape).Idx → EReal)
    (idx : IVec ⟨2, ![E, 1]⟩ w) (i : Fin N)
    (hx : x1 (ix1 i) = x2 (ix2 i 0)) (hu : ∀ e : Fin E, u1 (ix1 e) = u2 (ix2 e 0)) :
    Ideal.hostScatterAdd (⟨[], [0], [0], 1, wf1⟩ : ScatterDims ⟨1, ![N]⟩ ⟨2, ![E, 1]⟩ ⟨1, ![E]⟩) x1 idx u1 (ix1 i)
      = Ideal.hostScatterAdd (⟨[1], [0], [0], 1, wf2⟩ : ScatterDims ⟨2, ![N, 1]⟩ ⟨2, ![E, 1]⟩ ⟨2, ![E, 1]⟩) x2 idx u2 (ix2 i 0) := by
  unfold Ideal.hostScatterAdd
  rw [hx]
  congr 1
  rw [Finset.sum_filter, Finset.sum_filter, ← flatEquiv.symm.sum_comp, ← colEquiv.symm.sum_comp]
  refine Finset.sum_congr rfl fun e _ => ?_
  show (if ScatterDims.resultIdx? _ (ix1 e) idx = some (ix1 i) then u1 (ix1 e) else 0)
     = (if ScatterDims.resultIdx? _ (ix2 e 0) idx = some (ix2 i 0) then u2 (ix2 e 0) else 0)
  rw [hu e]
  exact if_congr ((flat_lands wf1 idx e i).trans (col_lands wf2 idx e i).symm) rfl rfl

/-- The same comparison for any two records of scatter dimension numbers with those axis lists, stated for the host's
    accumulating scatter itself. -/
theorem scatterAdd_flat_eq_col'
    (d1 : ScatterDims ⟨1, ![N]⟩ ⟨2, ![E, 1]⟩ ⟨1, ![E]⟩) (d2 : ScatterDims ⟨2, ![N, 1]⟩ ⟨2, ![E, 1]⟩ ⟨2, ![E, 1]⟩)
    (h1u : d1.updateWindowDims = []) (h1i : d1.insertedWindowDims = [0]) (h1s : d1.scatterDimsToOperandDims = [0])
    (h1v : d1.indexVectorDim = 1)
    (h2u : d2.updateWindowDims = [1]) (h2i : d2.insertedWindowDims = [0]) (h2s : d2.scatterDimsToOperandDims = [0])
    (h2v : d2.indexVectorDim = 1)
    (x1 : (⟨1, ![N]⟩ : Shape).Idx → EReal) (x2 : (⟨2, ![N, 1]⟩ : Shape).Idx → EReal)
    (u1 : (⟨1, ![E]⟩ : Shape).Idx → EReal) (u2 : (⟨2, ![E, 1]⟩ : Shape).Idx → EReal)
    (idx : IVec ⟨2, ![E, 1]⟩ w) (i : Fin N)
    (hx : x1 (ix1 i) = x2 (ix2 i 0)) (hu : ∀ e : Fin E, u1 (ix1 e) = u2 (ix2 e 0)) :
    Host.scatterAdd (F := Ideal) (φ := .f32) d1 x1 idx u1 (ix1 i) = Host.scatterAdd (F := Ideal) (φ := .f32) d2 x2 idx u2 (ix2 i 0) := by
  obtain ⟨a1, b1, c1, v1, wf1⟩ := d1
  obtain ⟨a2, b2, c2, v2, wf2⟩ := d2
  dsimp only at h1u h1i h1s h1v h2u h2i h2s h2v
  subst h1u h1i h1s h1v h2u h2i h2s h2v
  exact scatterAdd_flat_eq_col wf1 wf2 x1 x2 u1 u2 idx i hx hu

end Cert.Sage
end
-- ==== Proof.LibSegment.lean ====
/-
  An accumulating scatter of rows, read at one entry as a plain sum over the edges, for any sizes.

  The operand has N rows of C entries, the index array has one word per edge (carried with a trailing unit axis), and
  the updates have one row of C entries per edge.  The position of the update (e, c') is, on the row axis, the edge's
  word read as a signed integer (not clamped) plus a zero window coordinate, and on the column axis a zero start plus
  the window coordinate c'.  So the update (e, c') lands on the operand's entry (h, c) exactly when the edge's word
  reads as h and c' = c; a word that reads as no row lands nowhere.  The scatter's sum over the updates that land on
  (h, c) is therefore a double sum over edges and columns in which, for every edge, only the column c survives:

      scatter(x, idx, U)(h, c) = x(h, c) + ∑ e, (if idx(e) reads as h then U(e, c) else 0).
-/
import proofs.«112294_j10376640987275_2_alg».proof.Proof.LibRows
import proofs.«112294_j10376640987275_2_alg».proof.Proof.LibDegree

noncomputable section

namespace Cert.LibSegment

open Idealize.ShloMosaic Idealize.ShloMosaic.ValueIdx

variable {N E C w : ℕ}

section RowScatter
variable (wfS : ScatterDims.WF ⟨2, ![N, C]⟩ ⟨2, ![E, 1]⟩ ⟨2, ![E, C]⟩ [1] [0] [0] 1)

/-- On the column axis the window starts at zero: no component of the index array names that axis. -/
theorem scat_start1 (idx : IVec ⟨2, ![E, 1]⟩ w) (e : Fin E) (c : Fin C) :
    (Cert.LibRows.scatDims wfS).start (ix2 e c) idx 1 = 0 := by
  unfold ScatterDims.start
  rw [dif_neg (by simp)]

/-- On the column axis the window coordinate of the update (e, c) is c. -/
theorem scat_window1 (e : Fin E) (c : Fin C) : (Cert.LibRows.scatDims wfS).window (ix2 e c) 1 = c.val := by
  unfold ScatterDims.window
  rw [dif_pos (by simp [ScatterDims.sKept, Shape.kept, List.finRange])]
  rfl

/-- The update (e, c') lands on the entry (h, c) exactly when the edge's word reads, signed, as h, and c' = c. -/
theorem row_lands (idx : IVec ⟨2, ![E, 1]⟩ w) (e : Fin E) (c' : Fin C) (h : Fin N) (c : Fin C) :
    (Cert.LibRows.scatDims wfS).resultIdx? (ix2 e c') idx = some (ix2 h c)
      ↔ (idx (ix2 e 0)).toInt = (h.val : Int) ∧ c' = c := by
  rw [Cert.Sage.resultIdx?_eq_some_iff]
  constructor
  · intro hh
    have h0 := hh 0
    have h1 := hh 1
    rw [Cert.LibRows.scat_start0, Cert.LibRows.scat_window0, Nat.cast_zero, add_zero] at h0
    rw [scat_start1, scat_window1, zero_add] at h1
    refine ⟨h0, Fin.ext ?_⟩
    have h1' : (c'.val : Int) = (c.val : Int) := h1
    exact_mod_cast h1'
  · rintro ⟨h0, rfl⟩ a
    match a with
    | ⟨0, _⟩ =>
      show ScatterDims.start _ (ix2 e c') idx 0 + ((ScatterDims.window _ (ix2 e c') 0 : ℕ) : Int) = _
      rw [Cert.LibRows.scat_start0, Cert.LibRows.scat_window0, h0]; simp
    | ⟨1, _⟩ =>
      show ScatterDims.start _ (ix2 e c') idx 1 + ((ScatterDims.window _ (ix2 e c') 1 : ℕ) : Int) = _
      rw [scat_start1, scat_window1]; simp

/-- THE ACCUMULATING SCATTER OF ROWS AT AN ENTRY: the operand's entry plus, over the edges whose word reads as the
    entry's row, the update's entry in the same column. -/
theorem rowScatter_apply (x : (⟨2, ![N, C]⟩ : Shape).Idx → EReal) (idx : IVec ⟨2, ![E, 1]⟩ w)
    (U : (⟨2, ![E, C]⟩ : Shape).Idx → EReal) (h : Fin N) (c : Fin C) :
    Ideal.hostScatterAdd (Cert.LibRows.scatDims wfS) x idx U (ix2 h c)
      = x (ix2 h c) + ∑ e : Fin E, if (idx (ix2 e 0)).toInt = (h.val : Int) then U (ix2 e c) else 0 := by
  unfold Ideal.hostScatterAdd
  congr 1
  rw [Finset.sum_filter, sum_idx2]
  refine Finset.sum_congr rfl fun e _ => ?_
  rw [Finset.sum_congr rfl (fun c' _ => if_congr (row_lands wfS idx e c' h c) rfl rfl)]
  by_cases hP : (idx (ix2 e 0)).toInt = (h.val : Int)
  · simp only [hP, true_and, if_true]
    exact Finset.sum_ite_eq' Finset.univ c (fun c' => U (ix2 e c')) |>.trans (by simp)
  · simp only [hP, false_and, if_false]
    exact Finset.sum_const_zero
end RowScatter

end Cert.LibSegment

end
-- ==== Proof.RefDense.lean ====
/-
  The reference's two dense products, read at one entry.

  A product of a 50000 by 128 array with a 128 by 128 array, contracting the left operand's columns against the right
  operand's rows, is at the entry (n, j) the sum over k of X(n, k) · W(k, j).  The same with a 50000 by 256 left operand
  and a 256 by 128 right operand is the sum over 256 values of k.  When the left operand is two 50000 by 128 arrays A
  and B laid side by side along the columns, its column k below 128 is A's column k and its column 128 + k is B's
  column k, so the sum over 256 splits into the sum over A's columns against the first 128 rows of W plus the sum over
  B's columns against the last 128 rows of W.
-/
import proofs.«112294_j10376640987275_2_alg».proof.ReferenceIdeal
import Idealize.ShloMosaic.Lib.ValueIdx
import Idealize.ShloMosaic.Lib.Pipeline.Value
import Idealize.ShloMosaic.PureOps.Ideal.Laws

noncomputable section

namespace Cert.HyperConv

open Cert.ReferenceIdeal Idealize.ShloMosaic Idealize.ShloMosaic.ValueIdx

variable [Cert.ReferenceIdeal.Facts₀]

/-! ## The 128-column product -/

theorem lhs128_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch from List.not_mem_nil), dif_pos (show (0 : Fin S50000x128.rank) ∈ dot_S50000x128_S128x128_S50000x128_1_0_0_1_n_n.lhsNonContracting from List.mem_singleton.mpr rfl)]
  rfl
theorem lhs128_1 (i : S50000x128.Idx) (q : dot_S50000x128_S128x128_S50000x128_1_0_0_1_n_n.contr.Idx) :
    (dot_S50000x128_S128x128_S50000x128_1_0_0_1_n_n.lhsIdx i q 1).val = (q ⟨0, (show 0 < dot_S50000x128_S128x128_S50000x128_1_0_0_1_n_n.contr.rank from Nat.one_pos)⟩).val :=
  dot_S50000x128_S128x128_S50000x128_1_0_0_1_n_n.lhsIdx_val_of_single rfl i q
theorem rhs128_0 (i : S50000x128.Idx) (q : dot_S50000x128_S128x128_S50000x128_1_0_0_1_n_n.contr.Idx) :
    (dot_S50000x128_S128x128_S50000x128_1_0_0_1_n_n.rhsIdx i q 0).val = (q ⟨0, (show 0 < dot_S50000x128_S128x128_S50000x128_1_0_0_1_n_n.contr.rank from Nat.one_pos)⟩).val :=
  dot_S50000x128_S128x128_S50000x128_1_0_0_1_n_n.rhsIdx_val_of_single rfl i q
theorem rhs128_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch from List.not_mem_nil), dif_pos (show (1 : Fin S128x128.rank) ∈ dot_S50000x128_S128x128_S50000x128_1_0_0_1_n_n.rhsNonContracting from List.mem_singleton.mpr rfl)]
  rfl

/-- THE 128-COLUMN PRODUCT AT AN ENTRY: the sum over k of X(n, k) · W(k, j). -/
theorem dot128_apply (X : FVec Ideal S50000x128 .f32) (W : FVec Ideal S128x128 .f32) (n : Fin 50000) (j : Fin 128) :
    Host.dotGeneral (F := Ideal) dot_S50000x128_S128x128_S50000x128_1_0_0_1_n_n none X W (ix2 n j)
      = ∑ k : Fin 128, X (ix2 n k) * W (ix2 k j) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 n j) ((contrEquiv1 dot_S50000x128_S128x128_S50000x128_1_0_0_1_n_n 128 rfl rfl).symm k) = ix2 n k := funext fun a => Fin.ext (by
    match a with
    | ⟨0, _⟩ => exact lhs128_0 _ _
    | ⟨1, _⟩ => exact (lhs128_1 _ _).trans hk)
  have er : dot_S50000x128_S128x128_S50000x128_1_0_0_1_n_n.rhsIdx (ix2 n j) ((contrEquiv1 dot_S50000x128_S128x128_S50000x128_1_0_0_1_n_n 128 rfl rfl).symm k) = ix2 k j := funext fun a => Fin.ext (by
    match a with
    | ⟨0, _⟩ => exact (rhs128_0 _ _).trans hk
    | ⟨1, _⟩ => exact rhs128_1 _ _)
  rw [el, er]

/-! ## The 256-column product -/

theorem lhs256_0 (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch from List.not_mem_nil), dif_pos (show (0 : Fin S50000x256.rank) ∈ dot_S50000x256_S256x128_S50000x128_1_0_0_1_n_n.lhsNonContracting from List.mem_singleton.mpr rfl)]
  rfl
theorem lhs256_1 (i : S50000x128.Idx) (q : dot_S50000x256_S256x128_S50000x128_1_0_0_1_n_n.contr.Idx) :
    (dot_S50000x256_S256x128_S50000x128_1_0_0_1_n_n.lhsIdx i q 1).val = (q ⟨0, (show 0 < dot_S50000x256_S256x128_S50000x128_1_0_0_1_n_n.contr.rank from Nat.one_pos)⟩).val :=
  dot_S50000x256_S256x128_S50000x128_1_0_0_1_n_n.lhsIdx_val_of_single rfl i q
theorem rhs256_0 (i : S50000x128.Idx) (q : dot_S50000x256_S256x128_S50000x128_1_0_0_1_n_n.contr.Idx) :
    (dot_S50000x256_S256x128_S50000x128_1_0_0_1_n_n.rhsIdx i q 0).val = (q ⟨0, (show 0 < dot_S50000x256_S256x128_S50000x128_1_0_0_1_n_n.contr.rank from Nat.one_pos)⟩).val :=
  dot_S50000x256_S256x128_S50000x128_1_0_0_1_n_n.rhsIdx_val_of_single rfl i q
theorem rhs256_1 (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch from List.not_mem_nil), dif_pos (show (1 : Fin S256x128.rank) ∈ dot_S50000x256_S256x128_S50000x128_1_0_0_1_n_n.rhsNonContracting from List.mem_singleton.mpr rfl)]
  rfl

/-- The 256-column product at an entry: the sum over k of Y(n, k) · W(k, j). -/
theorem dot256_apply (Y : FVec Ideal S50000x256 .f32) (W : FVec Ideal S256x128 .f32) (n : Fin 50000) (j : Fin 128) :
    Host.dotGeneral (F := Ideal) dot_S50000x256_S256x128_S50000x128_1_0_0_1_n_n none Y W (ix2 n j)
      = ∑ k : Fin 256, Y (ix2 n k) * W (ix2 k j) := by
  simp only [Host.dotGeneral]
  rw [Ideal.dotGeneral_apply, ← Equiv.sum_comp (contrEquiv1 dot_S50000x256_S256x128_S50000x128_1_0_0_1_n_n 256 rfl rfl).symm]
  refine Finset.sum_congr rfl fun k _ => ?_
  have hk := contrEquiv1_symm_val dot_S50000x256_S256x128_S50000x128_1_0_0_1_n_n 256 rfl rfl k
  have el : dot_S50000x256_S256x128_S50000x128_1_0_0_1_n_n.lhsIdx (ix2 n j) ((contrEquiv1 dot_S50000x256_S256x128_S50000x128_1_0_0_1_n_n 256 rfl rfl).symm k) = ix2 n k := funext fun a => Fin.ext (by
    match a with
    | ⟨0, _⟩ => exact lhs256_0 _ _
    | ⟨1, _⟩ => exact (lhs256_1 _ _).trans hk)
  have er : dot_S50000x256_S256x128_S50000x128_1_0_0_1_n_n.rhsIdx (ix2 n j) ((contrEquiv1 dot_S50000x256_S256x128_S50000x128_1_0_0_1_n_n 256 rfl rfl).symm k) = ix2 k j := funext fun a => Fin.ext (by
    match a with
    | ⟨0, _⟩ => exact (rhs256_0 _ _).trans hk
    | ⟨1, _⟩ => exact rhs256_1 _ _)
  rw [el, er]

/-- Two arrays laid side by side along the columns, read in the first one's columns. -/
theorem concat_left (A B : FVec Ideal S50000x128 .f32) (n : Fin 50000) (k : Fin 128) :
    concatenate S50000x256 1 [⟨S50000x128, A⟩, ⟨S50000x128, B⟩] Facts₀.concatenates_S50000x128_S50000x128_S50000x256_d1
      (ix2 n (⟨k.val, by omega⟩ : Fin 256)) = A (ix2 n k) := by
  refine concatenate_pair_apply_left (t := S50000x256) (s₁ := S50000x128) (s₂ := S50000x128) 1 A B _ _ (rfl : S50000x128.rank = S50000x256.rank) (ix2 n k) (fun b => ?_)
  match b with
  | ⟨0, _⟩ => rfl
  | ⟨1, _⟩ => rfl

/-- Two arrays laid side by side along the columns, read in the second one's columns. -/
theorem concat_right (A B : FVec Ideal S50000x128 .f32) (n : Fin 50000) (k : Fin 128) :
    concatenate S50000x256 1 [⟨S50000x128, A⟩, ⟨S50000x128, B⟩] Facts₀.concatenates_S50000x128_S50000x128_S50000x256_d1
      (ix2 n (⟨128 + k.val, by omega⟩ : Fin 256)) = B (ix2 n k) := by
  refine concatenate_pair_apply_right (t := S50000x256) (s₁ := S50000x128) (s₂ := S50000x128) 1 A B _ _ (rfl : S50000x128.rank = S50000x256.rank) (rfl : S50000x128.rank = S50000x256.rank) (ix2 n k) (fun b hb => ?_) ?_
  · match b with
    | ⟨0, _⟩ => rfl
    | ⟨1, _⟩ => exact absurd rfl hb
  · show k.val + 128 = 128 + k.val
    omega

/-- THE 256-COLUMN PRODUCT OF TWO ARRAYS LAID SIDE BY SIDE, AT AN ENTRY: the first array against the first 128 rows of
    W plus the second array against the last 128 rows. -/
theorem dot256_concat (A B : FVec Ideal S50000x128 .f32) (W : FVec Ideal S256x128 .f32) (n : Fin 50000) (j : Fin 128) :
    Host.dotGeneral (F := Ideal) dot_S50000x256_S256x128_S50000x128_1_0_0_1_n_n none
        (concatenate S50000x256 1 [⟨S50000x128, A⟩, ⟨S50000x128, B⟩] Facts₀.concatenates_S50000x128_S50000x128_S50000x256_d1) W (ix2 n j)
      = (∑ k : Fin 128, A (ix2 n k) * W (ix2 (⟨k.val, by omega⟩ : Fin 256) j))
        + ∑ k : Fin 128, B (ix2 n k) * W (ix2 (⟨128 + k.val, by omega⟩ : Fin 256) j) := by
  generalize hY : concatenate S50000x256 1 [⟨S50000x128, A⟩, ⟨S50000x128, B⟩] Facts₀.concatenates_S50000x128_S50000x128_S50000x256_d1 = Y
  rw [dot256_apply Y W n j]
  refine (Fin.sum_univ_add (a := 128) (b := 128) (fun k : Fin 256 => Y (ix2 n k) * W (ix2 k j))).trans ?_
  congr 1
  · refine Finset.sum_congr rfl fun k _ => ?_
    have hl := concat_left A B n k
    rw [hY] at hl
    exact congrArg (· * W (ix2 (⟨k.val, by omega⟩ : Fin 256) j)) hl
  · refine Finset.sum_congr rfl fun k _ => ?_
    have hr := concat_right A B n k
    rw [hY] at hr
    exact congrArg (· * W (ix2 (⟨128 + k.val, by omega⟩ : Fin 256) j)) hr

end Cert.HyperConv

end
-- ==== Proof.RealArr.lean ====
/-
  Arrays of extended reals all of whose entries are real numbers.

  Over the extended reals the distributive law, and with it the linearity of a matrix product, holds only away from
  the infinities. An array is called real here when every entry is the coercion of a real number; sums, products,
  maxima of real arrays are real, and a finite sum of coerced reals is the coercion of the real sum.
-/
import Mathlib.Data.EReal.Operations
import Mathlib.Algebra.BigOperators.Group.Finset.Basic

noncomputable section

namespace Cert.HyperConv

/-- Every entry of the array is (the coercion of) a real number. -/
def IsReal {ι : Type} (f : ι → EReal) : Prop := ∀ i, ∃ r : ℝ, f i = (r : EReal)

/-- A real array is the coercion of an array of reals. -/
theorem IsReal.exists_eq {ι : Type} {f : ι → EReal} (h : IsReal f) : ∃ g : ι → ℝ, f = fun i => (g i : EReal) := by
  choose g hg using h
  exact ⟨g, funext hg⟩

/-- The coercion of a finite sum of reals is the sum of the coercions. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

end Cert.HyperConv

end
-- ==== Proof.StageReads.lean ====
/-
  The stages of the hypergraph convolution, each read at one entry.

  A gather of rows reads, at the entry (e, c), the table's row named by the incidence's id (a negative id counted from
  the end, the result clamped to the table) in column c.  A segment sum reads, at (h, c), the sum over the incidences
  that carry the id h of the incidence's entry in column c; a segment count is the number of those incidences, at
  least one, hence a real number that is not zero; a segment mean is the quotient of the two.  A rectifier reads the
  maximum of the entry and zero, a bias the vector's entry in that column, a dense layer the sum over k of the row's
  entry k times the weight's entry (k, j) plus the bias, and a row normalization the entry over the square root of
  the row's sum of squares.
-/
import proofs.«112294_j10376640987275_2_alg».proof.Proof.Stages
import proofs.«112294_j10376640987275_2_alg».proof.Proof.LibRows
import proofs.«112294_j10376640987275_2_alg».proof.Proof.LibSegment
import proofs.«112294_j10376640987275_2_alg».proof.Proof.RefDense
import proofs.«112294_j10376640987275_2_alg».proof.Proof.RealArr
import Idealize.ShloMosaic.Lib.Pipeline.Value
import Idealize.ShloMosaic.Lib.ValueIdx
import Idealize.ShloMosaic.Lib.IdealHost
import Idealize.ShloMosaic.PureOps.Ideal.Laws

noncomputable section

namespace Cert.HyperConv

open Cert.ReferenceIdeal Facts₀ Idealize.ShloMosaic Idealize.ShloMosaic.ValueIdx

variable [Cert.ReferenceIdeal.Facts₀]

/-! ## Gathering rows -/

/-- The table row an incidence reads: its id, a negative id counted from the end, clamped to the table. -/
def rowOf (v : Ids) (e : Fin 400000) : Fin 50000 :=
  ⟨Cert.LibRows.clampRow 50000 (wrapCol v (ix2 e 0)), Cert.LibRows.clampRow_lt (by norm_num) _⟩

/-- THE GATHERED ROWS AT AN ENTRY: the table's row named by the incidence, same column. -/
theorem gatherRows_apply (X : Rows) (v : Ids) (e : Fin 400000) (c : Fin 128) :
    gatherRows X v (ix2 e c) = X (ix2 (rowOf v e) c) := by
  unfold gatherRows
  exact Cert.LibRows.row_gather_apply gather_S50000x128_S400000x1_S400000x128_1_0_n_n_0_1_1128_wf (by norm_num) X
    (wrapCol v) e c

/-! ## Segment sums, counts and means -/

/-- The incidence e carries the id h: its word, read as a signed integer, is h. -/
def carries (v : Ids) (e : Fin 400000) (h : Fin 50000) : Prop := (idCol v (ix2 e 0)).toInt = (h.val : Int)

instance (v : Ids) (e : Fin 400000) (h : Fin 50000) : Decidable (carries v e h) :=
  inferInstanceAs (Decidable ((idCol v (ix2 e 0)).toInt = (h.val : Int)))

/-- The accumulating scatter of rows of 128 entries at an entry, over the incidences that carry the row's id. -/
theorem scatRows_apply (x : Rows) (v : Ids) (U : IncRows) (h : Fin 50000) (c : Fin 128) :
    Host.scatterAdd (F := Ideal) scatter_S50000x128_S400000x1_S400000x128_1_0_0_1 x (idCol v) U (ix2 h c)
      = x (ix2 h c) + ∑ e : Fin 400000, if carries v e h then U (ix2 e c) else 0 :=
  Cert.LibSegment.rowScatter_apply scatter_S50000x128_S400000x1_S400000x128_1_0_0_1_wf x (idCol v) U h c

/-- The accumulating scatter of rows of one entry at an entry, over the incidences that carry the row's id. -/
theorem scatCol_apply (x : FVec Ideal S50000x1 .f32) (v : Ids) (U : FVec Ideal S400000x1 .f32) (h : Fin 50000) :
    Host.scatterAdd (F := Ideal) scatter_S50000x1_S400000x1_S400000x1_1_0_0_1 x (idCol v) U (ix2 h (0 : Fin 1))
      = x (ix2 h (0 : Fin 1)) + ∑ e : Fin 400000, if carries v e h then U (ix2 e (0 : Fin 1)) else 0 :=
  Cert.LibSegment.rowScatter_apply scatter_S50000x1_S400000x1_S400000x1_1_0_0_1_wf x (idCol v) U h (0 : Fin 1)

/-- THE SEGMENT SUM AT AN ENTRY: the sum, over the incidences that carry the id, of the incidence's entry. -/
theorem segSum_apply (v : Ids) (U : IncRows) (h : Fin 50000) (c : Fin 128) :
    segSum v U (ix2 h c) = ∑ e : Fin 400000, if carries v e h then U (ix2 e c) else 0 := by
  unfold segSum
  rw [scatRows_apply, broadcastInDim_scalar_apply, constant_apply, Ideal.ofBits_zero_f32, zero_add]

/-- The coercion of the larger of two reals is the larger of the coercions. -/
theorem coe_max_real (a b : ℝ) : ((max a b : ℝ) : EReal) = max (a : EReal) (b : EReal) :=
  EReal.coe_strictMono.monotone.map_max

/-- THE SEGMENT COUNT IS A REAL NUMBER THAT IS NOT ZERO: the number of incidences that carry the id, or one. -/
theorem segCount_real (v : Ids) (h : Fin 50000) :
    ∃ d : ℝ, d ≠ 0 ∧ segCount v (ix2 h (0 : Fin 1)) = (d : EReal) := by
  refine ⟨max (∑ e : Fin 400000, if carries v e h then (1 : ℝ) else 0) 1, ?_, ?_⟩
  · have h1 : (1 : ℝ) ≤ max (∑ e : Fin 400000, if carries v e h then (1 : ℝ) else 0) 1 := le_max_right _ _
    intro h0
    rw [h0] at h1
    exact absurd h1 (by norm_num)
  · unfold segCount
    rw [maximumf_apply, scatCol_apply, broadcastInDim_scalar_apply, broadcastInDim_scalar_apply, constant_apply,
      constant_apply, Ideal.ofBits_zero_f32, Ideal.ofBits_one_f32, zero_add, coe_max_real, coe_sum, EReal.coe_one]
    refine congrArg (fun z : EReal => max z 1) ?_
    refine Finset.sum_congr rfl fun e _ => ?_
    rw [broadcastInDim_scalar_apply, constant_apply, Ideal.ofBits_one_f32]
    by_cases hp : carries v e h
    · rw [if_pos hp, if_pos hp, EReal.coe_one]
    · rw [if_neg hp, if_neg hp, EReal.coe_zero]

/-- THE SEGMENT MEAN AT AN ENTRY: the segment sum over the segment count. -/
theorem segMean_apply (v : Ids) (U : IncRows) (h : Fin 50000) (c : Fin 128) :
    segMean v U (ix2 h c) = Ideal.div (segSum v U (ix2 h c)) (segCount v (ix2 h (0 : Fin 1))) := by
  unfold segMean
  rw [hostDivf_apply]
  refine congrArg (Ideal.div (segSum v U (ix2 h c))) ?_
  refine broadcastInDim_apply _ bcast_S50000x1_S50000x128_0_1 (segCount v) (ix2 h c) (ix2 h (0 : Fin 1)) (fun a => ?_)
  match a with
  | ⟨0, _⟩ => show h.val = if (50000 : Nat) = 1 then 0 else h.val; rw [if_neg (by decide)]
  | ⟨1, _⟩ => show 0 = if (1 : Nat) = 1 then 0 else c.val; rw [if_pos rfl]

/-! ## The dense layers -/

/-- THE RECTIFIER AT AN ENTRY: the larger of the entry and zero. -/
theorem rectify_apply (X : Rows) (n : Fin 50000) (j : Fin 128) : rectify X (ix2 n j) = max (X (ix2 n j)) 0 := by
  unfold rectify
  rw [maximumf_apply, broadcastInDim_scalar_apply, constant_apply, Ideal.ofBits_zero_f32]

/-- THE BIAS AT AN ENTRY: the vector's entry in that column. -/
theorem biasRows_apply (b : FVec Ideal S128 .f32) (n : Fin 50000) (j : Fin 128) : biasRows b (ix2 n j) = b (ix1 j) := by
  unfold biasRows
  refine (broadcastInDim_apply _ bcast_S1x128_S50000x128_0_1 _ (ix2 n j) (ix2 (0 : Fin 1) j) (fun a => ?_)).trans ?_
  · match a with
    | ⟨0, _⟩ => show 0 = if (1 : Nat) = 1 then 0 else n.val; rw [if_pos rfl]
    | ⟨1, _⟩ => show j.val = if (128 : Nat) = 1 then 0 else j.val; rw [if_neg (by decide)]
  · refine broadcastInDim_apply _ bcast_S128_S1x128_1 b (ix2 (0 : Fin 1) j) (ix1 j) (fun a => ?_)
    match a with
    | ⟨0, _⟩ => show j.val = if (128 : Nat) = 1 then 0 else j.val; rw [if_neg (by decide)]

/-- THE FIRST DENSE LAYER AT AN ENTRY: the row against the weight's column, plus the bias, cut off below at zero. -/
theorem edgeLayer_apply (X : Rows) (W : FVec Ideal S128x128 .f32) (b : FVec Ideal S128 .f32) (n : Fin 50000)
    (j : Fin 128) :
    edgeLayer X W b (ix2 n j) = max ((∑ k : Fin 128, X (ix2 n k) * W (ix2 k j)) + b (ix1 j)) 0 := by
  unfold edgeLayer
  rw [rectify_apply, addf_apply, dot128_apply, biasRows_apply]

/-- THE SECOND DENSE LAYER AT AN ENTRY: the first array's row against the first 128 rows of the weight, plus the second
    array's row against the last 128 rows, plus the bias. -/
theorem nodeLayer_apply (X Y : Rows) (W : FVec Ideal S256x128 .f32) (b : FVec Ideal S128 .f32) (n : Fin 50000)
    (j : Fin 128) :
    nodeLayer X Y W b (ix2 n j)
      = ((∑ k : Fin 128, X (ix2 n k) * W (ix2 (⟨k.val, by omega⟩ : Fin 256) j))
          + ∑ k : Fin 128, Y (ix2 n k) * W (ix2 (⟨128 + k.val, by omega⟩ : Fin 256) j)) + b (ix1 j) := by
  unfold nodeLayer
  rw [addf_apply, dot256_concat, biasRows_apply]

/-! ## Dividing every row by its norm -/

/-- The host's square root at an entry is the square root of the entry. -/
theorem hostSqrt_apply {s : Shape} (Y : FVec Ideal s .f32) (i : s.Idx) : Host.sqrt Y i = Ideal.sqrt (Y i) := rfl

/-- The sum of squares of a row: the sum along the columns, from zero, of the entrywise square. -/
theorem rowSquares_apply (X : Rows) (n : Fin 50000) :
    Host.reduceAdd (mulf X X) (constant (F := Ideal) S_ .f32 0x00000000#32) reducesTo_S50000x128_S50000_d1 h_S_ (ix1 n)
      = ∑ t : Fin 128, X (ix2 n t) * X (ix2 n t) := by
  rw [hostReduceAdd_apply, Ideal.hostReduceAdd_single reducesTo_S50000x128_S50000_d1 (by decide), constant_apply,
    Ideal.ofBits_zero_f32, zero_add]
  refine Finset.sum_congr rfl fun t _ => ?_
  rw [mulf_apply]
  have hi : (by decide : Shape.Reduces S50000x128 [1] S50000).lift (ix1 n) t = ix2 n t :=
    funext fun a => Fin.ext (by match a with | ⟨0, _⟩ => rfl | ⟨1, _⟩ => rfl)
  rw [hi]
  rfl

/-- EVERY ROW DIVIDED BY ITS NORM, AT AN ENTRY: the entry over the square root of the row's sum of squares. -/
theorem unitRows_apply (X : Rows) (n : Fin 50000) (j : Fin 128) :
    unitRows X (ix2 n j) = Ideal.div (X (ix2 n j)) (Ideal.sqrt (∑ t : Fin 128, X (ix2 n t) * X (ix2 n t))) := by
  unfold unitRows
  rw [hostDivf_apply]
  refine congrArg (Ideal.div (X (ix2 n j))) ?_
  refine (broadcastInDim_apply _ bcast_S50000x1_S50000x128_0_1 _ (ix2 n j) (ix2 n (0 : Fin 1)) (fun a => ?_)).trans ?_
  · match a with
    | ⟨0, _⟩ => show n.val = if (50000 : Nat) = 1 then 0 else n.val; rw [if_neg (by decide)]
    | ⟨1, _⟩ => show 0 = if (1 : Nat) = 1 then 0 else j.val; rw [if_pos rfl]
  · rw [hostSqrt_apply]
    refine congrArg Ideal.sqrt ?_
    refine (broadcastInDim_apply _ bcast_S50000_S50000x1_0 _ (ix2 n (0 : Fin 1)) (ix1 n) (fun a => ?_)).trans ?_
    · match a with
      | ⟨0, _⟩ => show n.val = if (50000 : Nat) = 1 then 0 else n.val; rw [if_neg (by decide)]
    · exact rowSquares_apply X n

end Cert.HyperConv

end
-- ==== Proof.KernelStages.lean ====
/-
  The kernel program's own layout steps, as functions of whole arrays.

  The kernel multiplies the node features once by the first weight matrix joined, column-wise, to the upper half of the
  second weight matrix (the 128 rows that meet the node features), and later multiplies the hyperedge features by the
  lower half (the 128 rows that meet the aggregated hyperedge features). The first product's left half of columns is the
  node features times the first matrix, its right half the node features times the upper half. A bias vector enters as a
  matrix of one row, repeated on every row of a table.
-/
import proofs.«112294_j10376640987275_2_alg».proof.KernelIdeal
import proofs.«112294_j10376640987275_2_alg».proof.Proof.Gen.KernelIdeal
import Idealize.ShloMosaic.PureOps.Ideal

noncomputable section

namespace Cert.HyperConv

open Cert.KernelIdeal Idealize.ShloMosaic

/-- The upper half of the second weight matrix (the rows that meet the node features). -/
def upperHalf (Wn : FVec Ideal S256x128 .f32) : FVec Ideal S128x128 .f32 :=
  extractStridedSlice S128x128 ![0, 0] Wn Facts₀.slices_S256x128_S128x128_0_0

/-- The lower half of the second weight matrix (the rows that meet the aggregated hyperedge features). -/
def lowerHalf (Wn : FVec Ideal S256x128 .f32) : FVec Ideal S128x128 .f32 :=
  extractStridedSlice S128x128 ![128, 0] Wn Facts₀.slices_S256x128_S128x128_128_0

/-- The first weight matrix joined, column-wise, to the upper half of the second. -/
def joined (We : FVec Ideal S128x128 .f32) (Wn : FVec Ideal S256x128 .f32) : FVec Ideal S128x256 .f32 :=
  concatenate S128x256 1 [⟨S128x128, We⟩, ⟨S128x128, upperHalf Wn⟩] Facts₀.concatenates_S128x128_S128x128_S128x256_d1

/-- The left half of the first product (the columns that meet the first weight matrix). -/
def leftHalf (P : FVec Ideal S50000x256 .f32) : FVec Ideal S50000x128 .f32 :=
  extractStridedSlice S50000x128 ![0, 0] P Facts₀.slices_S50000x256_S50000x128_0_0

/-- The right half of the first product (the columns that meet the upper half of the second weight matrix). -/
def rightHalf (P : FVec Ideal S50000x256 .f32) : FVec Ideal S50000x128 .f32 :=
  extractStridedSlice S50000x128 ![0, 128] P Facts₀.slices_S50000x256_S50000x128_0_128

/-- A vector of 128 entries as a matrix of one row. -/
def oneRow (b : FVec Ideal S128 .f32) : FVec Ideal S1x128 .f32 := shapeCast _ b Facts₀.shapeCasts_S128_S1x128

/-- A vector of 128 entries as every row of a table, through its one-row form. -/
def rowsOf (b : FVec Ideal S128 .f32) : FVec Ideal S50000x128 .f32 :=
  broadcastInDim S50000x128 ![0, 1] Facts₀.bcast_S1x128_S50000x128_0_1 (oneRow b)

end Cert.HyperConv

end
-- ==== Proof.KernelReads.lean ====
/-
  The kernel program's layout steps read at one entry.

  Each of these steps moves entries and computes nothing: a half of a matrix is the matrix read 0 or 128 rows (or columns)
  further on; two matrices of 128 columns joined side by side read the first at the columns below 128 and the second at
  the columns from 128 on; a vector as a matrix of one row, and that row repeated on every row of a table, read the
  vector at the column.
-/
import proofs.«112294_j10376640987275_2_alg».proof.Proof.KernelStages
import Idealize.ShloMosaic.Lib.Pipeline.Value
import Idealize.ShloMosaic.Lib.ValueIdx
import Idealize.ShloMosaic.Lib.ValueLayout

noncomputable section

namespace Cert.HyperConv

open Cert.KernelIdeal Idealize.ShloMosaic Idealize.ShloMosaic.ValueIdx

/-- The left half of a `[50000, 256]` table at `(n, j)` is the table at `(n, j)`. -/
theorem leftHalf_apply (P : FVec Ideal S50000x256 .f32) (n : Fin 50000) (j : Fin 128) :
    leftHalf P (ix2 n j) = P (ix2 n (⟨j.val, by omega⟩ : Fin 256)) :=
  slice2_axis1_apply 0 P Facts₀.slices_S50000x256_S50000x128_0_0 n j ⟨j.val, by omega⟩ (Nat.zero_add _).symm

/-- The right half of a `[50000, 256]` table at `(n, j)` is the table at `(n, 128 + j)`. -/
theorem rightHalf_apply (P : FVec Ideal S50000x256 .f32) (n : Fin 50000) (j : Fin 128) :
    rightHalf P (ix2 n j) = P (ix2 n (⟨128 + j.val, by omega⟩ : Fin 256)) :=
  slice2_axis1_apply 128 P Facts₀.slices_S50000x256_S50000x128_0_128 n j ⟨128 + j.val, by omega⟩ rfl

/-- The upper half of a `[256, 128]` matrix at `(k, j)` is the matrix at `(k, j)`. -/
theorem upperHalf_apply (Wn : FVec Ideal S256x128 .f32) (k j : Fin 128) :
    upperHalf Wn (ix2 k j) = Wn (ix2 (⟨k.val, by omega⟩ : Fin 256) j) :=
  slice2_axis0_apply 0 Wn Facts₀.slices_S256x128_S128x128_0_0 k j ⟨k.val, by omega⟩ (Nat.zero_add _).symm

/-- The lower half of a `[256, 128]` matrix at `(k, j)` is the matrix at `(128 + k, j)`. -/
theorem lowerHalf_apply (Wn : FVec Ideal S256x128 .f32) (k j : Fin 128) :
    lowerHalf Wn (ix2 k j) = Wn (ix2 (⟨128 + k.val, by omega⟩ : Fin 256) j) :=
  slice2_axis0_apply 128 Wn Facts₀.slices_S256x128_S128x128_128_0 k j ⟨128 + k.val, by omega⟩ rfl

/-- The joined matrix at a column below 128 is the first matrix at that column. -/
theorem joined_left (We : FVec Ideal S128x128 .f32) (Wn : FVec Ideal S256x128 .f32) (k j : Fin 128) :
    joined We Wn (ix2 k (⟨j.val, by omega⟩ : Fin 256)) = We (ix2 k j) := by
  unfold joined
  exact concatenate_pair_apply_left (t := S128x256) 1 We (upperHalf Wn) Facts₀.concatenates_S128x128_S128x128_S128x256_d1
    (ix2 k (⟨j.val, by omega⟩ : Fin 256)) rfl (ix2 k j) (fun b => by
      match b with
      | ⟨0, _⟩ => rfl
      | ⟨1, _⟩ => rfl)

/-- The joined matrix at column `128 + j` is the upper half of the second matrix at column `j`. -/
theorem joined_right (We : FVec Ideal S128x128 .f32) (Wn : FVec Ideal S256x128 .f32) (k j : Fin 128) :
    joined We Wn (ix2 k (⟨128 + j.val, by omega⟩ : Fin 256)) = Wn (ix2 (⟨k.val, by omega⟩ : Fin 256) j) := by
  unfold joined
  exact (concatenate_pair_apply_right (t := S128x256) 1 We (upperHalf Wn) Facts₀.concatenates_S128x128_S128x128_S128x256_d1
    (ix2 k (⟨128 + j.val, by omega⟩ : Fin 256)) rfl rfl (ix2 k j) (fun b hb => by
      match b with
      | ⟨0, _⟩ => rfl
      | ⟨1, _⟩ => exact absurd rfl hb)
    (by show j.val + 128 = 128 + j.val; omega)).trans (upperHalf_apply Wn k j)

/-- A vector as a matrix of one row reads the vector at the column. -/
theorem oneRow_apply (b : FVec Ideal S128 .f32) (j : Fin 128) : oneRow b (ix2 (0 : Fin 1) j) = b (ix1 j) :=
  shapeCast_a_1a_apply b Facts₀.shapeCasts_S128_S1x128 (0 : Fin 1) j

/-- A vector repeated on every row of a table reads the vector at the column. -/
theorem rowsOf_apply (b : FVec Ideal S128 .f32) (n : Fin 50000) (j : Fin 128) : rowsOf b (ix2 n j) = b (ix1 j) := by
  refine Eq.trans ?_ (oneRow_apply b j)
  unfold rowsOf
  generalize oneRow b = y
  exact broadcastInDim_apply _ Facts₀.bcast_S1x128_S50000x128_0_1 y (ix2 n j) (ix2 (0 : Fin 1) j) (fun a => match a with
    | ⟨0, _⟩ => by show 0 = if (1 : Nat) = 1 then 0 else n.val; rw [if_pos rfl]
    | ⟨1, _⟩ => by show j.val = if (128 : Nat) = 1 then 0 else j.val; rw [if_neg (by decide)])

end Cert.HyperConv

end
-- ==== Proof.RegionNormalize.lean ====
/-
  Region 2 of the kernel: three arrays are added and every row of the sum is divided by its Euclidean norm.

  The region reads two `[50000, 128]` arrays and one bias row `[1, 128]`. Its grid has ten points; point `t` handles
  rows `5000 t … 5000 t + 4999`, and the bias row is whole at every point. Inside one block the body forms
  `s = (a + b) + bias` (the bias row repeated down the rows), sums `s · s` over the 128 lanes of each row, takes the
  square root of that sum, repeats it along the row and divides `s` by it. A row of a block is a row of the arrays,
  and the lane sum of a row never leaves its block, so the array the region leaves is ONE function of the three arrays,
  entry by entry: `s n j / √(∑ₜ s n t · s n t)` with `s n j = (a n j + b n j) + bias 0 j`.

  First the two layout readings the body needs (a vector viewed as one column, a column repeated along the lanes),
  then the body's value at an entry of a block, then the blocks' rows as rows of the arrays, then what each point
  writes back, the cover of the array by the ten blocks, and the array after the region.
-/
import proofs.«112294_j10376640987275_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.HyperConv

open Cert.KernelIdeal Idealize.ShloMosaic Idealize.ShloMosaic.ValueIdx Idealize.ShloMosaic.TcCoe
open Idealize.ShloMosaic.Pipeline (Dat)

/-! ## Two layout readings -/

/-- A vector cast to one column: `[a]` viewed `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over many: an `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body at an entry of one block -/

namespace Normalize

/-- The sum of the three arrays at row `p`, lane `q` of one block: the two row blocks added, then the bias row. -/
def blockSum (x0 x1 : Vec Ideal S5000x128 .f32) (x2 : Vec Ideal S1x128 .f32) (p : Fin 5000) (q : Fin 128) : EReal :=
  (x0 (ix2 p q) + x1 (ix2 p q)) + x2 (ix2 (0 : Fin 1) q)

/-- The body's three-array sum, read at an entry of the block. -/
theorem blockSum_apply (x0 x1 : Vec Ideal S5000x128 .f32) (x2 : Vec Ideal S1x128 .f32)
    (h1 : S5000x128.ShapeCasts S5000x128) (h2 : S1x128.ShapeCasts S1x128) (h3 : S1x128.Broadcasts S5000x128)
    (p : Fin 5000) (q : Fin 128) :
    (addf (addf (shapeCast S5000x128 x0 h1 : FVec Ideal S5000x128 .f32) (shapeCast S5000x128 x1 h1))
        (broadcastTo S5000x128 (shapeCast S1x128 x2 h2) h3) : FVec Ideal S5000x128 .f32) (ix2 p q)
      = blockSum x0 x1 x2 p q := by
  rw [shapeCast_self, shapeCast_self, shapeCast_self]
  show (x0 (ix2 p q) + x1 (ix2 p q)) + broadcastTo S5000x128 x2 h3 (ix2 p q) = _
  exact congrArg _ (broadcastTo_1b_ab_apply x2 h3 p q)

/-- A sum over the lanes of a `[5000, 128]` block, read at row `r`: the sum of the row's 128 entries. -/
theorem laneSum_apply (src : FVec Ideal S5000x128 .f32) (h : S5000x128.Reduces [1] S5000) (hφ : FKind.Formats .f32)
    (hacc : (0x00000000#32 : BitVec 32) = 0x00000000#32) (r : Fin 5000) :
    multiReduction .add [1] S5000 src 0x00000000#32 h hφ hacc (ix1 r) = ∑ t : Fin 128, src (ix2 r t) := by
  refine (Ideal.multiReduction_add_single src 0x00000000#32 h hφ hacc (ix1 r)).trans ?_
  show ∑ t : Fin 128, src (h.lift (ix1 r) t) = _
  refine Finset.sum_congr rfl fun t _ => congrArg src (funext fun a => ?_)
  match a with
  | ⟨0, _⟩ => rfl
  | ⟨1, _⟩ => rfl

/-- The body's value at row `p`, lane `q` of a block: the row's sum at that lane divided by the square root of the sum
    of the squares along the row. -/
theorem combine_payload_apply (x0 x1 : Vec Ideal S5000x128 .f32) (x2 : Vec Ideal S1x128 .f32) (p : Fin 5000) (q : Fin 128) :
    Gen.k2_pay1 (F := Ideal) x0 x1 x2 (ix2 p q)
      = Ideal.div (blockSum x0 x1 x2 p q) (Ideal.sqrt (∑ t : Fin 128, blockSum x0 x1 x2 p t * blockSum x0 x1 x2 p t)) := by
  unfold Gen.k2_pay1
  dsimp only
  rw [divf_apply]
  refine congrArg₂ Ideal.div (blockSum_apply x0 x1 x2 _ _ _ p q) ?_
  refine (broadcastTo_a1_ab_apply _ _ p q).trans ?_
  show Ideal.sqrt (shapeCast S5000x1 _ _ (ix2 p (0 : Fin 1))) = _
  refine congrArg Ideal.sqrt ?_
  refine (shapeCast_a_a1_apply _ _ p (0 : Fin 1)).trans ?_
  refine (laneSum_apply _ _ _ _ p).trans ?_
  refine Finset.sum_congr rfl fun t _ => ?_
  rw [mulf_apply, blockSum_apply]

end Normalize

/-! ## The arrays, and the function the region computes -/

-- the buffer contents when the region is entered, and the core
variable (V : (c : Dev Cert.KernelIdeal.nD) → (b : Ref Cert.KernelIdeal.sig .tc) → Buf (Elt Ideal) ((c : Thread Cert.KernelIdeal.nD Cert.KernelIdeal.τ).loc b))
variable (c : Dev Cert.KernelIdeal.nD)

/-- Row `n`, lane `j` of the sum of two `[50000, 128]` arrays and one bias row. -/
def rowSumOf (a b : S50000x128.Idx → EReal) (d : S1x128.Idx → EReal) (n : Fin 50000) (j : Fin 128) : EReal :=
  (a (ix2 n j) + b (ix2 n j)) + d (ix2 (0 : Fin 1) j)

/-- Row `n`, lane `j` of the sum of the three arrays the region reads: the two `[50000, 128]` arrays added entry by
    entry, then the bias row added to every row. -/
def rowSum (n : Fin 50000) (j : Fin 128) : EReal :=
  rowSumOf (V c main_v9) (V c main_v50) (V c main_v51) n j

/-- The whole result: every row of the sum divided by its Euclidean norm. -/
def normalizedRows : S50000x128.Idx → EReal := fun i =>
  Ideal.div (rowSum V c ⟨(i 0).val, idx2_lt0 i⟩ ⟨(i 1).val, idx2_lt1 i⟩)
    (Ideal.sqrt (∑ t : Fin 128, rowSum V c ⟨(i 0).val, idx2_lt0 i⟩ t * rowSum V c ⟨(i 0).val, idx2_lt0 i⟩ t))

/-- The normalized rows at row `n`, lane `j`. -/
theorem normalizedRows_apply (n : Fin 50000) (j : Fin 128) :
    normalizedRows V c (ix2 n j)
      = Ideal.div (rowSum V c n j) (Ideal.sqrt (∑ t : Fin 128, rowSum V c n t * rowSum V c n t)) := rfl

/-! ## The blocks' rows are the arrays' rows -/

namespace Normalize

theorem zero_offsets : (![0, 0] : Fin 2 → Nat) = fun _ => 0 := funext fun a => by fin_cases a <;> rfl

/-- The windows' index maps over the ten grid points: the three `[50000, 128]` windows sit at block row `t`, block
    column 0; the bias window is whole at every point. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of the first input's block at point `t` is row `5000 t + p` of its array. -/
theorem inblock0_apply (t : Fin cfg2.N) (p : Fin 5000) (q : Fin 128) (n : Fin 50000) (hn : n.val = t.val * 5000 + p.val) :
    (Gen.iblk2 (F := Ideal) V c 0 t : Vec Ideal S5000x128 .f32) (ix2 p q) = (V c main_v9 : S50000x128.Idx → EReal) (ix2 n q) := by
  obtain ⟨e0, e1, -⟩ := block_index t
  unfold Gen.iblk2
  rw [View.read_apply]
  show V c main_v9 _ = V c main_v9 _
  refine congrArg (V c main_v9) (funext fun a => Fin.ext ?_)
  match a with
  | ⟨0, _⟩ => show win2_0.index t (0 : Fin 2) * 5000 + 1 * p.val = n.val; rw [e0, hn]; omega
  | ⟨1, _⟩ => show win2_0.index t (1 : Fin 2) * 128 + 1 * q.val = q.val; rw [e1]; omega

/-- Row `p` of the second input's block at point `t` is row `5000 t + p` of its array. -/
theorem inblock1_apply (t : Fin cfg2.N) (p : Fin 5000) (q : Fin 128) (n : Fin 50000) (hn : n.val = t.val * 5000 + p.val) :
    (Gen.iblk2 (F := Ideal) V c 1 t : Vec Ideal S5000x128 .f32) (ix2 p q) = (V c main_v50 : S50000x128.Idx → EReal) (ix2 n q) := by
  obtain ⟨-, -, e0, e1, -⟩ := block_index t
  unfold Gen.iblk2
  rw [View.read_apply]
  show V c main_v50 _ = V c main_v50 _
  refine congrArg (V c main_v50) (funext fun a => Fin.ext ?_)
  match a with
  | ⟨0, _⟩ => show win2_1.index t (0 : Fin 2) * 5000 + 1 * p.val = n.val; rw [e0, hn]; omega
  | ⟨1, _⟩ => show win2_1.index t (1 : Fin 2) * 128 + 1 * q.val = q.val; rw [e1]; omega

/-- The bias window's block is the whole bias row at every point. -/
theorem inblock2_apply (t : Fin cfg2.N) (q : Fin 128) :
    (Gen.iblk2 (F := Ideal) V c 2 t : Vec Ideal S1x128 .f32) (ix2 (0 : Fin 1) q) = (V c main_v51 : S1x128.Idx → EReal) (ix2 (0 : Fin 1) q) := by
  obtain ⟨-, -, -, -, e0, e1, -⟩ := block_index t
  unfold Gen.iblk2
  rw [View.read_apply]
  show V c main_v51 _ = V c main_v51 _
  refine congrArg (V c main_v51) (funext fun a => Fin.ext ?_)
  match a with
  | ⟨0, _⟩ => show win2_2.index t (0 : Fin 2) * 1 + 1 * 0 = 0; rw [e0]
  | ⟨1, _⟩ => show win2_2.index t (1 : Fin 2) * 128 + 1 * q.val = q.val; rw [e1]; omega

/-- One entry of what the body computes from three blocks whose rows are rows `5000 T + p` of the arrays: the entry
    of the normalized rows at the array index that sits `T` blocks down. -/
theorem block_entry (x0 x1 : Vec Ideal S5000x128 .f32) (x2 : Vec Ideal S1x128 .f32) (T : ℕ)
    (h0 : ∀ (p : Fin 5000) (q : Fin 128) (n : Fin 50000), n.val = T * 5000 + p.val →
      x0 (ix2 p q) = (V c main_v9 : S50000x128.Idx → EReal) (ix2 n q))
    (h1 : ∀ (p : Fin 5000) (q : Fin 128) (n : Fin 50000), n.val = T * 5000 + p.val →
      x1 (ix2 p q) = (V c main_v50 : S50000x128.Idx → EReal) (ix2 n q))
    (h2 : ∀ q : Fin 128, x2 (ix2 (0 : Fin 1) q) = (V c main_v51 : S1x128.Idx → EReal) (ix2 (0 : Fin 1) q))
    (y : S5000x128.Idx) (i : S50000x128.Idx) (hi0 : (i 0).val = T * 5000 + (y 0).val) (hi1 : (i 1).val = (y 1).val) :
    Gen.k2_pay1 (F := Ideal) x0 x1 x2 y = normalizedRows V c i := by
  obtain ⟨p, q, rfl⟩ : ∃ (p : Fin 5000) (q : Fin 128), y = ix2 p q := ⟨y 0, y 1, eq_ix2 y⟩
  obtain ⟨n, j, rfl⟩ : ∃ (n : Fin 50000) (j : Fin 128), i = ix2 n j := ⟨i 0, i 1, eq_ix2 i⟩
  have hn : n.val = T * 5000 + p.val := hi0
  obtain rfl : j = q := Fin.ext hi1
  have hrow : ∀ t : Fin 128, blockSum x0 x1 x2 p t = rowSum V c n t := fun t => by
    unfold blockSum rowSum rowSumOf
    rw [h0 p t n hn, h1 p t n hn, h2 t]
  refine (combine_payload_apply x0 x1 x2 p j).trans ?_
  rw [normalizedRows_apply, hrow j]
  exact congrArg (fun s => Ideal.div (rowSum V c n j) (Ideal.sqrt s)) (Finset.sum_congr rfl fun t _ => by rw [hrow t])

/-! ## What each point writes back, the cover, and the array after the region -/

/-- What point `t` writes back is block `t` of the normalized rows. -/
theorem flushed_eq (t : Fin cfg2.N) :
    (Gen.dat2 (F := Ideal) V c).flushed 3 t = ((cfg2.win 3).blk t).view.read (Elt Ideal) (normalizedRows V c) := by
  show (cfg2.win 3).cut (grid2.coords t) ((Gen.dat2 (F := Ideal) V c).after 3 t) = _
  rw [Gen.after2_3]
  unfold Gen.out2_3
  rw [View.canon_unit_zero zero_offsets]
  simp only [View.ld_unit_zero (S := S5000x128) zero_offsets, View.ld_unit_zero (S := S1x128) zero_offsets]
  obtain ⟨-, -, -, -, -, -, e0, e1⟩ := block_index t
  funext y
  show Gen.k2_pay1 (F := Ideal) (Gen.iblk2 V c 0 t) (Gen.iblk2 V c 1 t) (Gen.iblk2 V c 2 t) y
    = normalizedRows V c (((cfg2.win 3).blk t).view.emb y)
  refine block_entry V c (Gen.iblk2 V c 0 t) (Gen.iblk2 V c 1 t) (Gen.iblk2 V c 2 t) t.val
    (inblock0_apply V c t) (inblock1_apply V c t) (inblock2_apply V c t) y _ ?_ ?_
  · show win2_3.index t (0 : Fin 2) * 5000 + 1 * (y 0).val = t.val * 5000 + (y 0).val
    rw [e0]; omega
  · show win2_3.index t (1 : Fin 2) * 128 + 1 * (y 1).val = (y 1).val
    rw [e1]; omega

/-- An index of the array is in point `t`'s block iff each coordinate is in the block's range on its axis. -/
theorem mem_block (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v52).slice (win2_3.rect t)).set ↔ _
  rw [View.set_slice_whole, Rect.mem_set_unit]
  exact Iff.rfl

/-- Every row of the array is in some point's block: row `r` is in the block of point `r / 5000`. -/
theorem covered (i : S50000x128.Idx) :
    ∃ t : Fin cfg2.N, (cfg2.win 3).flush t = true ∧ i ∈ ((cfg2.win 3).blk t).view.set := by
  have hN : cfg2.N = 10 := Gen.N_2
  have hi0 : (i 0).val < 50000 := idx2_lt0 i
  have hi1 : (i 1).val < 128 := idx2_lt1 i
  obtain ⟨t, ht⟩ : ∃ t : Fin cfg2.N, t.val = (i 0).val / 5000 := ⟨⟨(i 0).val / 5000, by rw [hN]; omega⟩, rfl⟩
  obtain ⟨-, -, -, -, -, -, e0, e1⟩ := block_index t
  refine ⟨t, Gen.flush2_3 t, ?_⟩
  rw [mem_block]
  intro a
  match a with
  | ⟨0, _⟩ =>
    show win2_3.index t (0 : Fin 2) * 5000 ≤ (i 0).val ∧ (i 0).val < win2_3.index t (0 : Fin 2) * 5000 + 5000
    rw [e0, ht]; omega
  | ⟨1, _⟩ =>
    show win2_3.index t (1 : Fin 2) * 128 ≤ (i 1).val ∧ (i 1).val < win2_3.index t (1 : Fin 2) * 128 + 128
    rw [e1]; omega

end Normalize

/-- The output array after the region: the normalized rows. -/
theorem region2_array : (Gen.dat2 (F := Ideal) V c).arrAt 3 cfg2.N = normalizedRows V c :=
  (Gen.dat2 (F := Ideal) V c).arrAt_eq_of_cover 3 (normalizedRows V c) (fun t _ => Normalize.flushed_eq V c t) Normalize.covered

/-- Entry by entry: row `n` of the sum of the three arrays, divided by the square root of the sum of its squares. -/
theorem region2_value (n : Fin 50000) (j : Fin 128) :
    (Gen.dat2 (F := Ideal) V c).arrAt 3 cfg2.N (ix2 n j)
      = Ideal.div (rowSum V c n j) (Ideal.sqrt (∑ t : Fin 128, rowSum V c n t * rowSum V c n t)) :=
  (congrFun (region2_array V c) (ix2 n j)).trans (normalizedRows_apply V c n j)

end Cert.HyperConv

end
-- ==== Proof.RealLaws.lean ====
/-
  The one law that joins the two programs: a masked, scaled sum of rows commutes with a matrix product.

  Let a(e, k) be real numbers, one row per incidence e, let p pick the incidences that carry a given id, let s be a real
  scale (the reciprocal of a count) and w(k) a real column of a weight matrix. Then

      ∑ k, ((∑ e, [p e] a(e, k)) · s) · w(k)  =  (∑ e, [p e] ∑ k, a(e, k) · w(k)) · s,

  that is, taking the mean of the picked rows and then multiplying by the matrix is multiplying every row by the
  matrix and then taking the mean. Over the extended reals this uses the distributive law, which holds because every
  number in sight is real; the proof pushes the coercions outwards and finishes in the field of real numbers.
-/
import proofs.«112294_j10376640987275_2_alg».proof.Proof.RealArr
import Mathlib.Algebra.BigOperators.Ring.Finset
import Mathlib.Algebra.BigOperators.Group.Finset.Sigma
import Mathlib.Tactic.Ring
import Mathlib.Tactic.SplitIfs

noncomputable section

namespace Cert.HyperConv

/-- A masked sum of coerced reals is the coercion of the masked real sum. -/
theorem coe_masked_sum {ι : Type} (s : Finset ι) (p : ι → Prop) [DecidablePred p] (f : ι → ℝ) :
    (∑ i ∈ s, if p i then (f i : EReal) else 0) = ((∑ i ∈ s, if p i then f i else 0 : ℝ) : EReal) := by
  rw [coe_sum]
  refine Finset.sum_congr rfl fun i _ => ?_
  split_ifs <;> simp

/-- A sum of products of coerced reals is the coercion of the real sum of products. -/
theorem coe_sum_mul {κ : Type} (s : Finset κ) (f g : κ → ℝ) :
    (∑ k ∈ s, (f k : EReal) * (g k : EReal)) = ((∑ k ∈ s, f k * g k : ℝ) : EReal) := by
  rw [coe_sum]
  exact Finset.sum_congr rfl fun k _ => (EReal.coe_mul _ _).symm

/-- The law over the reals. -/
theorem real_mean_mul {E K : Type} [Fintype E] [Fintype K] (p : E → Prop) [DecidablePred p] (a : E → K → ℝ)
    (w : K → ℝ) (s : ℝ) :
    ∑ k, ((∑ e, if p e then a e k else 0) * s) * w k = (∑ e, if p e then ∑ k, a e k * w k else 0) * s := by
  simp only [Finset.sum_mul]
  rw [Finset.sum_comm]
  refine Finset.sum_congr rfl fun e _ => ?_
  split_ifs
  · rw [Finset.sum_mul]
    exact Finset.sum_congr rfl fun k _ => by ring
  · simp

/-- THE LAW over the extended reals, for real entries: the mean of the picked rows times the matrix is the mean of
    the picked rows of the product. -/
theorem mean_mul {E K : Type} [Fintype E] [Fintype K] (p : E → Prop) [DecidablePred p] (a : E → K → ℝ)
    (w : K → ℝ) (s : ℝ) :
    ∑ k, ((∑ e, if p e then (a e k : EReal) else 0) * (s : EReal)) * (w k : EReal)
      = (∑ e, if p e then ∑ k, (a e k : EReal) * (w k : EReal) else 0) * (s : EReal) := by
  have h1 : ∀ k, (∑ e, if p e then (a e k : EReal) else 0) = ((∑ e, if p e then a e k else 0 : ℝ) : EReal) :=
    fun k => coe_masked_sum Finset.univ p fun e => a e k
  have h2 : ∀ e, (∑ k, (a e k : EReal) * (w k : EReal)) = ((∑ k, a e k * w k : ℝ) : EReal) :=
    fun e => coe_sum_mul Finset.univ (a e) w
  have h3 : (∑ e, if p e then ((∑ k, a e k * w k : ℝ) : EReal) else 0)
      = ((∑ e, if p e then ∑ k, a e k * w k else 0 : ℝ) : EReal) :=
    coe_masked_sum Finset.univ p fun e => ∑ k, a e k * w k
  simp only [h1, h2]
  rw [h3, ← EReal.coe_mul, ← real_mean_mul p a w s, coe_sum]
  exact Finset.sum_congr rfl fun k _ => by rw [EReal.coe_mul, EReal.coe_mul]

end Cert.HyperConv

end
-- ==== Proof.FeatsReal.lean ====
/-
  The hyperedge features are real.

  An entry of the hyperedge features is the larger of zero and a bias entry plus a sum over k of a mean times a weight
  entry; the mean is a sum, over the incidences that carry the hyperedge's id, of entries of the node features, divided
  by a count that is a real number and not zero, hence multiplied by the real reciprocal of the count.  When the node
  features, the weights and the bias have only real entries, every operation here is on coerced reals: a masked sum of
  coerced reals, a product, a sum of products, a sum and a maximum of coerced reals are coerced reals.  So every entry
  of the hyperedge features is a real number.
-/
import proofs.«112294_j10376640987275_2_alg».proof.Proof.StageReads
import proofs.«112294_j10376640987275_2_alg».proof.Proof.RealLaws

noncomputable section

namespace Cert.HyperConv

open Cert.ReferenceIdeal Facts₀ Idealize.ShloMosaic Idealize.ShloMosaic.ValueIdx

variable [Cert.ReferenceIdeal.Facts₀]

/-- A segment mean of gathered rows of a real table is real: the masked real sum times the reciprocal of the count. -/
theorem segMean_gather_coe (x : Rows) (gx : S50000x128.Idx → ℝ) (hgx : ∀ i, x i = (gx i : EReal)) (v u : Ids)
    (h : Fin 50000) (d : ℝ) (hd : d ≠ 0) (hcnt : segCount v (ix2 h (0 : Fin 1)) = (d : EReal)) (k : Fin 128) :
    segMean v (gatherRows x u) (ix2 h k)
      = (((∑ e : Fin 400000, if carries v e h then gx (ix2 (rowOf u e) k) else 0) * (1 / d) : ℝ) : EReal) := by
  have hsum : (∑ e : Fin 400000, if carries v e h then gatherRows x u (ix2 e k) else 0)
      = ((∑ e : Fin 400000, if carries v e h then gx (ix2 (rowOf u e) k) else 0 : ℝ) : EReal) := by
    rw [← coe_masked_sum Finset.univ (fun e => carries v e h) (fun e => gx (ix2 (rowOf u e) k))]
    refine Finset.sum_congr rfl fun e _ => ?_
    rw [gatherRows_apply, hgx]
  rw [segMean_apply, segSum_apply, hcnt, Ideal.div_coe hd, hsum, ← EReal.coe_mul]

/-- THE HYPEREDGE FEATURES ARE REAL when the node features, the weights and the bias are. -/
theorem edgeFeats_isReal (x : Rows) (a : Incidence) (We : FVec Ideal S128x128 .f32) (be : FVec Ideal S128 .f32)
    (hx : IsReal (x : S50000x128.Idx → EReal)) (hWe : IsReal (We : S128x128.Idx → EReal))
    (hbe : IsReal (be : S128.Idx → EReal)) :
    IsReal (edgeFeats x a We be : S50000x128.Idx → EReal) := by
  choose gx hgx using hx
  choose gW hgW using hWe
  choose gb hgb using hbe
  intro i
  obtain ⟨h, c, rfl⟩ : ∃ (h : Fin 50000) (c : Fin 128), i = ix2 h c := ⟨i 0, i 1, eq_ix2 i⟩
  obtain ⟨d, hd, hcnt⟩ := segCount_real (edgeIds a) h
  refine ⟨max ((∑ k : Fin 128,
      ((∑ e : Fin 400000, if carries (edgeIds a) e h then gx (ix2 (rowOf (nodeIds a) e) k) else 0) * (1 / d))
        * gW (ix2 k c)) + gb (ix1 c)) 0, ?_⟩
  unfold edgeFeats
  rw [edgeLayer_apply, coe_max_real, EReal.coe_add, EReal.coe_zero, ← coe_sum_mul, hgb]
  refine congrArg (fun z : EReal => max (z + (gb (ix1 c) : EReal)) 0) ?_
  refine Finset.sum_congr rfl fun k _ => ?_
  rw [segMean_gather_coe x gx hgx (edgeIds a) (nodeIds a) h d hd hcnt k, hgW]

end Cert.HyperConv

end
-- ==== Proof.Bridge.lean ====
/-
  The kernel's rows are the reference's rows.

  The reference takes a segment mean of gathered rows and THEN multiplies by a weight matrix; the kernel multiplies every
  row by the matrix first and takes the segment mean of the gathered products. A segment mean at an entry is a masked sum
  over incidences times the reciprocal of a nonzero real count, so for real entries the two orders agree: the mean of the
  picked rows times the matrix is the mean of the picked rows of the product. This is used twice, for the first weight
  matrix and for the lower half of the second; the right half of the kernel's first product supplies the upper half's
  term, and the two terms and the bias add up to the reference's second dense layer on the joined features.
-/
import proofs.«112294_j10376640987275_2_alg».proof.Proof.StageReads
import proofs.«112294_j10376640987275_2_alg».proof.Proof.KernelReads
import proofs.«112294_j10376640987275_2_alg».proof.Proof.RegionNormalize
import proofs.«112294_j10376640987275_2_alg».proof.Proof.RealLaws
import proofs.«112294_j10376640987275_2_alg».proof.Proof.FeatsReal

noncomputable section

namespace Cert.HyperConv

open Cert.ReferenceIdeal Idealize.ShloMosaic Idealize.ShloMosaic.ValueIdx

/-- THE COMMUTATION at an entry: if every row of Y is the row of X times W, and X and W are real, the segment mean of
    the gathered rows of Y is the segment mean of the gathered rows of X, times W. -/
theorem segMean_product (X Y : Rows) (W : FVec Ideal S128x128 .f32)
    (hX : IsReal (X : S50000x128.Idx → EReal)) (hW : IsReal (W : S128x128.Idx → EReal))
    (hY : ∀ (n : Fin 50000) (c : Fin 128), Y (ix2 n c) = ∑ k : Fin 128, X (ix2 n k) * W (ix2 k c))
    (v v' : Ids) (h : Fin 50000) (c : Fin 128) :
    segMean v (gatherRows Y v') (ix2 h c) = ∑ k : Fin 128, segMean v (gatherRows X v') (ix2 h k) * W (ix2 k c) := by
  obtain ⟨X', rfl⟩ := hX.exists_eq
  obtain ⟨W', rfl⟩ := hW.exists_eq
  obtain ⟨d, hd0, hd⟩ := segCount_real v h
  rw [segMean_apply, segSum_apply, hd, Ideal.div_coe hd0]
  simp only [segMean_apply, segSum_apply, hd, Ideal.div_coe hd0, gatherRows_apply, hY]
  exact (mean_mul (fun e : Fin 400000 => carries v e h) (fun e k => X' (ix2 (rowOf v' e) k)) (fun k => W' (ix2 k c)) (1 / d)).symm

/-- The left half of the kernel's first product is the node features times the first weight matrix. -/
theorem leftHalf_product (x : Rows) (We : FVec Ideal S128x128 .f32) (Wn : FVec Ideal S256x128 .f32)
    (P0 : FVec Ideal S50000x256 .f32)
    (hP0 : ∀ (n : Fin 50000) (j : Fin 256), P0 (ix2 n j) = ∑ k : Fin 128, x (ix2 n k) * joined We Wn (ix2 k j))
    (n : Fin 50000) (c : Fin 128) : leftHalf P0 (ix2 n c) = ∑ k : Fin 128, x (ix2 n k) * We (ix2 k c) := by
  rw [leftHalf_apply, hP0]
  exact Finset.sum_congr rfl fun k _ => by rw [joined_left]

/-- The right half of the kernel's first product is the node features times the upper half of the second matrix. -/
theorem rightHalf_product (x : Rows) (We : FVec Ideal S128x128 .f32) (Wn : FVec Ideal S256x128 .f32)
    (P0 : FVec Ideal S50000x256 .f32)
    (hP0 : ∀ (n : Fin 50000) (j : Fin 256), P0 (ix2 n j) = ∑ k : Fin 128, x (ix2 n k) * joined We Wn (ix2 k j))
    (n : Fin 50000) (j : Fin 128) :
    rightHalf P0 (ix2 n j) = ∑ k : Fin 128, x (ix2 n k) * Wn (ix2 (⟨k.val, by omega⟩ : Fin 256) j) := by
  rw [rightHalf_apply, hP0]
  exact Finset.sum_congr rfl fun k _ => by rw [joined_right]

/-- The kernel's hyperedge features are the reference's: the segment mean commutes with the first weight matrix. -/
theorem feats_eq (x : Rows) (a : Incidence) (We : FVec Ideal S128x128 .f32) (be : FVec Ideal S128 .f32)
    (Wn : FVec Ideal S256x128 .f32) (P0 : FVec Ideal S50000x256 .f32)
    (hx : IsReal (x : S50000x128.Idx → EReal)) (hWe : IsReal (We : S128x128.Idx → EReal))
    (hP0 : ∀ (n : Fin 50000) (j : Fin 256), P0 (ix2 n j) = ∑ k : Fin 128, x (ix2 n k) * joined We Wn (ix2 k j)) :
    rectify (addf (segMean (edgeIds a) (gatherRows (leftHalf P0) (nodeIds a))) (rowsOf be)) = edgeFeats x a We be := by
  funext i
  obtain ⟨h, c, rfl⟩ : ∃ (h : Fin 50000) (c : Fin 128), i = ix2 h c := ⟨i 0, i 1, eq_ix2 i⟩
  rw [rectify_apply]
  unfold edgeFeats
  rw [edgeLayer_apply]
  show max (segMean (edgeIds a) (gatherRows (leftHalf P0) (nodeIds a)) (ix2 h c) + rowsOf be (ix2 h c)) 0 = _
  rw [segMean_product x (leftHalf P0) We hx hWe (leftHalf_product x We Wn P0 hP0), rowsOf_apply]

/-- THE ROWS AGREE: what the kernel's last region adds up at an entry is the reference's second dense layer there. -/
theorem rows_eq (x : Rows) (a : Incidence) (We : FVec Ideal S128x128 .f32) (be : FVec Ideal S128 .f32)
    (Wn : FVec Ideal S256x128 .f32) (bn : FVec Ideal S128 .f32) (P0 : FVec Ideal S50000x256 .f32) (Fk P1 : Rows)
    (hx : IsReal (x : S50000x128.Idx → EReal)) (hWe : IsReal (We : S128x128.Idx → EReal))
    (hbe : IsReal (be : S128.Idx → EReal)) (hWn : IsReal (Wn : S256x128.Idx → EReal))
    (hP0 : ∀ (n : Fin 50000) (j : Fin 256), P0 (ix2 n j) = ∑ k : Fin 128, x (ix2 n k) * joined We Wn (ix2 k j))
    (hFk : Fk = rectify (addf (segMean (edgeIds a) (gatherRows (leftHalf P0) (nodeIds a))) (rowsOf be)))
    (hP1 : ∀ (n : Fin 50000) (j : Fin 128), P1 (ix2 n j) = ∑ k : Fin 128, Fk (ix2 n k) * lowerHalf Wn (ix2 k j))
    (n : Fin 50000) (j : Fin 128) :
    rowSumOf (rightHalf P0) (segMean (nodeIds a) (gatherRows P1 (edgeIds a))) (oneRow bn) n j
      = refOut x a We be Wn bn (ix2 n j) := by
  have hF : Fk = edgeFeats x a We be := hFk.trans (feats_eq x a We be Wn P0 hx hWe hP0)
  subst hF
  have hFr : IsReal (edgeFeats x a We be : S50000x128.Idx → EReal) := edgeFeats_isReal x a We be hx hWe hbe
  have hLr : IsReal (lowerHalf Wn : S128x128.Idx → EReal) := fun i => by
    obtain ⟨k, q, rfl⟩ : ∃ (k : Fin 128) (q : Fin 128), i = ix2 k q := ⟨i 0, i 1, eq_ix2 i⟩
    rw [lowerHalf_apply]
    exact hWn _
  unfold rowSumOf refOut
  rw [nodeLayer_apply, segMean_product (edgeFeats x a We be) P1 (lowerHalf Wn) hFr hLr hP1,
    rightHalf_product x We Wn P0 hP0, oneRow_apply]
  simp only [lowerHalf_apply]

end Cert.HyperConv

end
-- ==== Proof.KernelWalk.lean ====
/-
  The idealized kernel's result buffer, read back through the program's segments.

  The program runs: seven host operations (the two id rows of the incidence list, the two halves of the second weight
  matrix, the first weight matrix joined to the upper half); a row-tiled matrix product of the node features with the
  joined matrix; host operations that cut the product into its two halves, take the segment mean over hyperedges of
  the gathered rows of the left half, add the first bias and rectify; a second row-tiled product with the lower half of
  the second weight matrix; host operations that take the segment mean over nodes of the gathered rows of that product;
  and a last region that adds the right half of the first product, the second mean and the second bias, and divides
  every row by its Euclidean norm. Each buffer is read at each segment boundary as a stage function of the buffers at
  the previous boundary, down to the launch memory.
-/
import proofs.«112294_j10376640987275_2_alg».proof.Proof.Gen.KernelIdeal.Frame
import proofs.«112294_j10376640987275_2_alg».proof.Proof.Stages
import proofs.«112294_j10376640987275_2_alg».proof.Proof.KernelStages
import Idealize.ShloMosaic.Lib.StableHlo.Run

set_option maxRecDepth 16384

noncomputable section

namespace Cert.HyperConv

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first seven host operations -/

theorem at1_x : W1 m ρ c (Proc.devRef .tc main_arg0) = m ((c : Thread nD τ).loc main_arg0) := by
  show StableHlo.after hostOps0 (W0 m ρ c) (Proc.devRef .tc main_arg0) = _
  after_results_simp

theorem at1_edgeIds : W1 m ρ c (Proc.devRef .tc main_v1) = Cert.HyperConv.edgeIds (m ((c : Thread nD τ).loc main_arg1)) := by
  show StableHlo.after hostOps0 (W0 m ρ c) (Proc.devRef .tc main_v1) = _
  after_results_simp
  rfl

theorem at1_nodeIds : W1 m ρ c (Proc.devRef .tc main_v3) = Cert.HyperConv.nodeIds (m ((c : Thread nD τ).loc main_arg1)) := by
  show StableHlo.after hostOps0 (W0 m ρ c) (Proc.devRef .tc main_v3) = _
  after_results_simp
  rfl

theorem at1_lower : W1 m ρ c (Proc.devRef .tc main_v5) = lowerHalf (m ((c : Thread nD τ).loc main_arg4)) := by
  show StableHlo.after hostOps0 (W0 m ρ c) (Proc.devRef .tc main_v5) = _
  after_results_simp
  rfl

theorem at1_joined : W1 m ρ c (Proc.devRef .tc main_v6)
    = joined (m ((c : Thread nD τ).loc main_arg2)) (m ((c : Thread nD τ).loc main_arg4)) := by
  show StableHlo.after hostOps0 (W0 m ρ c) (Proc.devRef .tc main_v6) = _
  after_results_simp
  rfl

theorem at1_bias1 : W1 m ρ c (Proc.devRef .tc main_arg3) = m ((c : Thread nD τ).loc main_arg3) := by
  show StableHlo.after hostOps0 (W0 m ρ c) (Proc.devRef .tc main_arg3) = _
  after_results_simp

theorem at1_bias2 : W1 m ρ c (Proc.devRef .tc main_arg5) = m ((c : Thread nD τ).loc main_arg5) := by
  show StableHlo.after hostOps0 (W0 m ρ c) (Proc.devRef .tc main_arg5) = _
  after_results_simp

/-! ## After the first product: every buffer but the product's arrays is as before -/

theorem at2_edgeIds : W2 m ρ c (Proc.devRef .tc main_v1) = Cert.HyperConv.edgeIds (m ((c : Thread nD τ).loc main_arg1)) :=
  (W2_of_ne m ρ c main_v1 (by decide)).trans (at1_edgeIds m ρ c)
theorem at2_nodeIds : W2 m ρ c (Proc.devRef .tc main_v3) = Cert.HyperConv.nodeIds (m ((c : Thread nD τ).loc main_arg1)) :=
  (W2_of_ne m ρ c main_v3 (by decide)).trans (at1_nodeIds m ρ c)
theorem at2_lower : W2 m ρ c (Proc.devRef .tc main_v5) = lowerHalf (m ((c : Thread nD τ).loc main_arg4)) :=
  (W2_of_ne m ρ c main_v5 (by decide)).trans (at1_lower m ρ c)
theorem at2_bias1 : W2 m ρ c (Proc.devRef .tc main_arg3) = m ((c : Thread nD τ).loc main_arg3) :=
  (W2_of_ne m ρ c main_arg3 (by decide)).trans (at1_bias1 m ρ c)
theorem at2_bias2 : W2 m ρ c (Proc.devRef .tc main_arg5) = m ((c : Thread nD τ).loc main_arg5) :=
  (W2_of_ne m ρ c main_arg5 (by decide)).trans (at1_bias2 m ρ c)

/-! ## After the first segment mean and its bias -/

theorem at3_right : W3 m ρ c (Proc.devRef .tc main_v9) = rightHalf (W2 m ρ c (Proc.devRef .tc main_v7)) := by
  show StableHlo.after hostOps1 (W2 m ρ c) (Proc.devRef .tc main_v9) = _
  after_results_simp
  rfl

theorem at3_pre : W3 m ρ c (Proc.devRef .tc main_v30)
    = addf (Cert.HyperConv.segMean (Cert.HyperConv.edgeIds (m ((c : Thread nD τ).loc main_arg1)))
        (Cert.HyperConv.gatherRows (leftHalf (W2 m ρ c (Proc.devRef .tc main_v7))) (Cert.HyperConv.nodeIds (m ((c : Thread nD τ).loc main_arg1)))))
      (rowsOf (m ((c : Thread nD τ).loc main_arg3))) := by
  show StableHlo.after hostOps1 (W2 m ρ c) (Proc.devRef .tc main_v30) = _
  after_results_simp
  rw [at2_edgeIds, at2_nodeIds, at2_bias1]
  rfl

theorem at3_edgeIds : W3 m ρ c (Proc.devRef .tc main_v1) = Cert.HyperConv.edgeIds (m ((c : Thread nD τ).loc main_arg1)) := by
  show StableHlo.after hostOps1 (W2 m ρ c) (Proc.devRef .tc main_v1) = _
  after_results_simp
  exact at2_edgeIds m ρ c
theorem at3_nodeIds : W3 m ρ c (Proc.devRef .tc main_v3) = Cert.HyperConv.nodeIds (m ((c : Thread nD τ).loc main_arg1)) := by
  show StableHlo.after hostOps1 (W2 m ρ c) (Proc.devRef .tc main_v3) = _
  after_results_simp
  exact at2_nodeIds m ρ c
theorem at3_lower : W3 m ρ c (Proc.devRef .tc main_v5) = lowerHalf (m ((c : Thread nD τ).loc main_arg4)) := by
  show StableHlo.after hostOps1 (W2 m ρ c) (Proc.devRef .tc main_v5) = _
  after_results_simp
  exact at2_lower m ρ c
theorem at3_bias2 : W3 m ρ c (Proc.devRef .tc main_arg5) = m ((c : Thread nD τ).loc main_arg5) := by
  show StableHlo.after hostOps1 (W2 m ρ c) (Proc.devRef .tc main_arg5) = _
  after_results_simp
  exact at2_bias2 m ρ c

/-! ## After the rectifier -/

theorem at4_feats : W4 m ρ c (Proc.devRef .tc main_v31) = Cert.HyperConv.rectify (W3 m ρ c (Proc.devRef .tc main_v30)) := by
  show StableHlo.after hostOps1_1 (W3 m ρ c) (Proc.devRef .tc main_v31) = _
  after_results_simp
  rfl

theorem at4_right : W4 m ρ c (Proc.devRef .tc main_v9) = rightHalf (W2 m ρ c (Proc.devRef .tc main_v7)) := by
  show StableHlo.after hostOps1_1 (W3 m ρ c) (Proc.devRef .tc main_v9) = _
  after_results_simp
  exact at3_right m ρ c
theorem at4_edgeIds : W4 m ρ c (Proc.devRef .tc main_v1) = Cert.HyperConv.edgeIds (m ((c : Thread nD τ).loc main_arg1)) := by
  show StableHlo.after hostOps1_1 (W3 m ρ c) (Proc.devRef .tc main_v1) = _
  after_results_simp
  exact at3_edgeIds m ρ c
theorem at4_nodeIds : W4 m ρ c (Proc.devRef .tc main_v3) = Cert.HyperConv.nodeIds (m ((c : Thread nD τ).loc main_arg1)) := by
  show StableHlo.after hostOps1_1 (W3 m ρ c) (Proc.devRef .tc main_v3) = _
  after_results_simp
  exact at3_nodeIds m ρ c
theorem at4_lower : W4 m ρ c (Proc.devRef .tc main_v5) = lowerHalf (m ((c : Thread nD τ).loc main_arg4)) := by
  show StableHlo.after hostOps1_1 (W3 m ρ c) (Proc.devRef .tc main_v5) = _
  after_results_simp
  exact at3_lower m ρ c
theorem at4_bias2 : W4 m ρ c (Proc.devRef .tc main_arg5) = m ((c : Thread nD τ).loc main_arg5) := by
  show StableHlo.after hostOps1_1 (W3 m ρ c) (Proc.devRef .tc main_arg5) = _
  after_results_simp
  exact at3_bias2 m ρ c

/-! ## After the second product: every buffer but the product's arrays is as before -/

theorem at5_right : W5 m ρ c (Proc.devRef .tc main_v9) = rightHalf (W2 m ρ c (Proc.devRef .tc main_v7)) :=
  (W5_of_ne m ρ c main_v9 (by decide)).trans (at4_right m ρ c)
theorem at5_edgeIds : W5 m ρ c (Proc.devRef .tc main_v1) = Cert.HyperConv.edgeIds (m ((c : Thread nD τ).loc main_arg1)) :=
  (W5_of_ne m ρ c main_v1 (by decide)).trans (at4_edgeIds m ρ c)
theorem at5_nodeIds : W5 m ρ c (Proc.devRef .tc main_v3) = Cert.HyperConv.nodeIds (m ((c : Thread nD τ).loc main_arg1)) :=
  (W5_of_ne m ρ c main_v3 (by decide)).trans (at4_nodeIds m ρ c)
theorem at5_bias2 : W5 m ρ c (Proc.devRef .tc main_arg5) = m ((c : Thread nD τ).loc main_arg5) :=
  (W5_of_ne m ρ c main_arg5 (by decide)).trans (at4_bias2 m ρ c)

/-! ## After the second segment mean -/

theorem at6_mean : W6 m ρ c (Proc.devRef .tc main_v50)
    = Cert.HyperConv.segMean (Cert.HyperConv.nodeIds (m ((c : Thread nD τ).loc main_arg1)))
        (Cert.HyperConv.gatherRows (W5 m ρ c (Proc.devRef .tc main_v32)) (Cert.HyperConv.edgeIds (m ((c : Thread nD τ).loc main_arg1)))) := by
  show StableHlo.after hostOps2 (W5 m ρ c) (Proc.devRef .tc main_v50) = _
  after_results_simp
  rw [at5_edgeIds, at5_nodeIds]
  rfl

theorem at6_bias2 : W6 m ρ c (Proc.devRef .tc main_v51) = oneRow (m ((c : Thread nD τ).loc main_arg5)) := by
  show StableHlo.after hostOps2 (W5 m ρ c) (Proc.devRef .tc main_v51) = _
  after_results_simp
  rw [at5_bias2]
  rfl

theorem at6_right : W6 m ρ c (Proc.devRef .tc main_v9) = rightHalf (W2 m ρ c (Proc.devRef .tc main_v7)) := by
  show StableHlo.after hostOps2 (W5 m ρ c) (Proc.devRef .tc main_v9) = _
  after_results_simp
  exact at5_right m ρ c

end Cert.HyperConv

end
-- ==== Proof.RegionProducts.lean ====
/- Regions 0 and 1 of the idealized kernel program: each is a row-tiled matrix product. Ten grid points, point `t`
   handling rows `5000·t … 5000·t + 4999` of the left operand against the whole right operand. At the ideal values the
   array each region leaves is, entry by entry, the plain sum `∑ k, a[n, k] * b[k, j]` of the arrays the region finds. -/
import proofs.«112294_j10376640987275_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.HyperConv

open Cert.KernelIdeal Idealize.ShloMosaic Idealize.ShloMosaic.ValueIdx Idealize.ShloMosaic.TcCoe Idealize.SL.Sem
open Idealize.ShloMosaic.Pipeline (Dat)
open scoped BigOperators

namespace Product0

/-- The zero offsets of a whole-buffer access, as a constant function. -/
theorem zero_offsets : (![0, 0] : Fin 2 → Nat) = fun _ => 0 := funext fun a => by fin_cases a <;> rfl

/-! ## Region 0: `[50000,128] × [128,256]` -/

/-- The left operand's index of the dot at output index `i` and contraction index `q`: row `i 0` … -/
theorem dot0_lhs_row (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
/-- … column the contraction coordinate. -/
theorem dot0_lhs_col (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
/-- The right operand's index: row the contraction coordinate … -/
theorem dot0_rhs_row (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
/-- … column `i 1`. -/
theorem dot0_rhs_col (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The body's payload at an entry of the block: the bf16 casts are the identity at the ideal values and the matmul into
    the zero splat is the plain sum over the contraction axis. -/
theorem payload0_apply (x0 : Vec Ideal S5000x128 .f32) (x1 : Vec Ideal S128x256 .f32) (p : Fin 5000) (q : Fin 256) :
    Gen.k0_pay1 (F := Ideal) x0 x1 (ix2 p q) = ∑ k : Fin 128, x0 (ix2 p k) * x1 (ix2 k q) := by
  unfold Gen.k0_pay1
  refine (Ideal.matmul_constant_zero_apply dot_S5000x128_S128x256_S5000x256_1_0_0_1_n_n none _ _ (ix2 p q)).trans ?_
  rw [← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun a => Fin.ext (by
    match a with
    | ⟨0, _⟩ => exact dot0_lhs_row _ _
    | ⟨1, _⟩ => exact (dot0_lhs_col _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun a => Fin.ext (by
    match a with
    | ⟨0, _⟩ => exact (dot0_rhs_row _ _).trans hk
    | ⟨1, _⟩ => exact dot0_rhs_col _ _)
  rw [el, er, truncf_apply, truncf_apply, shapeCast_self]

/-- The specification: row `i 0` of `a` against column `i 1` of `b`, summed over the shared axis. -/
def rowsTimes0 (a : S50000x128.Idx → EReal) (b : S128x256.Idx → EReal) : S50000x256.Idx → EReal :=
  fun i => ∑ k : Fin 128, a (ix2 (⟨(i 0).val, idx2_lt0 i⟩ : Fin 50000) k) * b (ix2 k (⟨(i 1).val, idx2_lt1 i⟩ : Fin 256))

/-- The payload as one function of the block index. -/
theorem payload0_eq (x0 : Vec Ideal S5000x128 .f32) (x1 : Vec Ideal S128x256 .f32) :
    Gen.k0_pay1 (F := Ideal) x0 x1
      = fun y => ∑ k : Fin 128, x0 (ix2 (⟨(y 0).val, idx2_lt0 y⟩ : Fin 5000) k) * x1 (ix2 k (⟨(y 1).val, idx2_lt1 y⟩ : Fin 256)) := by
  funext y
  obtain ⟨p, q, rfl⟩ : ∃ (p : Fin 5000) (q : Fin 256), y = ix2 p q := ⟨y 0, y 1, eq_ix2 y⟩
  exact payload0_apply x0 x1 p q

/-- The printed index maps over the grid: the row-tiled windows sit at block row `t`, block column 0; the weight's
    window is the whole array at every point. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The left operand's block at point `t` is rows `5000·t … 5000·t + 4999` of the array. -/
theorem left_block0 (c : Dev nD) (t : Fin cfg0.N) (x : S5000x128.Idx) (k : S50000x128.Idx)
    (hk0 : (k 0).val = 5000 * t.val + (x 0).val) (hk1 : (k 1).val = (x 1).val) :
    (Gen.iblk0 V c 0 t : Vec Ideal S5000x128 .f32) x = (V c main_arg0 : S50000x128.Idx → EReal) k := by
  obtain ⟨e0, e1, -⟩ := index_facts0 t
  unfold Gen.iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The right operand's block at every point is the whole array. -/
theorem right_block0 (c : Dev nD) (t : Fin cfg0.N) (x : S128x256.Idx) (k : S128x256.Idx)
    (hk0 : (k 0).val = (x 0).val) (hk1 : (k 1).val = (x 1).val) :
    (Gen.iblk0 V c 1 t : Vec Ideal S128x256 .f32) x = (V c main_v6 : S128x256.Idx → EReal) k := by
  obtain ⟨-, -, e0, e1, -⟩ := index_facts0 t
  unfold Gen.iblk0
  rw [View.read_apply]
  show V c main_v6 _ = V c main_v6 _
  congr 1
  funext a
  apply Fin.ext
  match a with
  | ⟨0, _⟩ => show win0_1.index t 0 * 128 + 1 * (x 0).val = (k 0).val; rw [e0, hk0]; omega
  | ⟨1, _⟩ => show win0_1.index t 1 * 256 + 1 * (x 1).val = (k 1).val; rw [e1, hk1]; omega

/-- What point `t` writes back is block `t` of the product of the arrays the region finds. -/
theorem flushed0_eq (c : Dev nD) (t : Fin cfg0.N) :
    (Gen.dat0 V c).flushed 2 t
      = ((cfg0.win 2).blk t).view.read (Elt Ideal) (rowsTimes0 (V c main_arg0) (V c main_v6)) := by
  show (cfg0.win 2).cut (grid0.coords t) ((Gen.dat0 V c).after 2 t) = _
  rw [Gen.after0_2]
  unfold Gen.out0_2
  rw [View.canon_unit_zero zero_offsets]
  simp only [View.ld_unit_zero (S := S5000x128) zero_offsets, View.ld_unit_zero (S := S128x256) zero_offsets]
  rw [payload0_eq]
  obtain ⟨-, -, -, -, e0, e1⟩ := index_facts0 t
  funext j
  rw [View.read_apply]
  show ∑ k : Fin 128, @HMul.hMul EReal EReal EReal instHMul (Gen.iblk0 V c 0 t (ix2 (⟨(j 0).val, _⟩ : Fin 5000) k))
         (Gen.iblk0 V c 1 t (ix2 k (⟨(j 1).val, _⟩ : Fin 256)))
     = ∑ k : Fin 128, @HMul.hMul EReal EReal EReal instHMul
         (V c main_arg0 (ix2 (⟨((((cfg0.win 2).blk t).view.emb j) 0).val, _⟩ : Fin 50000) k))
         (V c main_v6 (ix2 k (⟨((((cfg0.win 2).blk t).view.emb j) 1).val, _⟩ : Fin 256)))
  refine Finset.sum_congr rfl fun k _ => ?_
  have hrow : ((((cfg0.win 2).blk t).view.emb j) 0).val = 5000 * t.val + (j 0).val := by
    show win0_2.index t (0 : Fin 2) * 5000 + 1 * (j 0).val = _; rw [e0]; omega
  have hcol : ((((cfg0.win 2).blk t).view.emb j) 1).val = (j 1).val := by
    show win0_2.index t (1 : Fin 2) * 256 + 1 * (j 1).val = _; rw [e1]; omega
  exact congrArg₂ (@HMul.hMul EReal EReal EReal instHMul) (left_block0 V c t _ _ hrow rfl) (right_block0 V c t _ _ rfl hcol)

/-- An index of the output array is in point `t`'s block iff each coordinate is in the block's range on its axis. -/
theorem mem_block0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v7).slice (win0_2.rect t)).set ↔ _
  rw [View.set_slice_whole, Rect.mem_set_unit]
  exact Iff.rfl

/-- Every index of the output array is in some point's block: row `r` belongs to point `r / 5000`. -/
theorem cover0 (i : S50000x256.Idx) :
    ∃ t : Fin cfg0.N, (cfg0.win 2).flush t = true ∧ i ∈ ((cfg0.win 2).blk t).view.set := by
  have hi0 : (i 0).val < 50000 := idx2_lt0 i
  have hi1 : (i 1).val < 256 := idx2_lt1 i
  have hN : cfg0.N = 10 := Gen.N_0
  let t : Fin cfg0.N := ⟨(i 0).val / 5000, by rw [hN]; omega⟩
  have ht : t.val = (i 0).val / 5000 := rfl
  obtain ⟨-, -, -, -, e0, e1⟩ := index_facts0 t
  refine ⟨t, Gen.flush0_2 t, ?_⟩
  rw [mem_block0]
  intro a
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 256 ≤ (i 1).val ∧ (i 1).val < win0_2.index t (1 : Fin 2) * 256 + 256; rw [e1]; omega

/-- The array region 0 leaves is the product of the arrays it finds. -/
theorem final0 (c : Dev nD) :
    (Gen.dat0 (F := Ideal) V c).arrAt 2 cfg0.N = rowsTimes0 (V c main_arg0) (V c main_v6) :=
  (Gen.dat0 V c).arrAt_eq_of_cover 2 (rowsTimes0 (V c main_arg0) (V c main_v6)) (fun t _ => flushed0_eq V c t) cover0

end Product0

variable (V : (c : Dev nD) → (b : Ref sig .tc) → Buf (Elt Ideal) ((c : Thread nD τ).loc b))

/-- REGION 0, entry by entry: row `n` of the input times column `j` of the joined weight. -/
theorem region0_value (c : Dev nD) (n : Fin 50000) (j : Fin 256) :
    (Gen.dat0 (F := Ideal) V c).arrAt 2 cfg0.N (ix2 n j)
      = ∑ k : Fin 128, @HMul.hMul EReal EReal EReal instHMul (V c main_arg0 (ix2 n k)) (V c main_v6 (ix2 k j)) :=
  (congrFun (Product0.final0 V c) (ix2 n j)).trans rfl

namespace Product1

/-! ## Region 1: `[50000,128] × [128,128]` -/

/-- The left operand's index of the dot at output index `i` and contraction index `q`: row `i 0` … -/
theorem dot1_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … column the contraction coordinate. -/
theorem dot1_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's index: row the contraction coordinate … -/
theorem dot1_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … column `i 1`. -/
theorem dot1_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's payload at an entry of the block: the bf16 casts are the identity at the ideal values and the matmul into
    the zero splat is the plain sum over the contraction axis. -/
theorem payload1_apply (x0 : Vec Ideal S5000x128 .f32) (x1 : Vec Ideal S128x128 .f32) (p : Fin 5000) (q : Fin 128) :
    Gen.k1_pay1 (F := Ideal) x0 x1 (ix2 p q) = ∑ k : Fin 128, x0 (ix2 p k) * x1 (ix2 k q) := by
  unfold Gen.k1_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact dot1_lhs_row _ _
    | ⟨1, _⟩ => exact (dot1_lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot1_rhs_row _ _).trans hk
    | ⟨1, _⟩ => exact dot1_rhs_col _ _)
  rw [el, er, truncf_apply, truncf_apply, shapeCast_self, shapeCast_self]

/-- The specification: row `i 0` of `a` against column `i 1` of `b`, summed over the shared axis. -/
def rowsTimes1 (a : S50000x128.Idx → EReal) (b : S128x128.Idx → EReal) : S50000x128.Idx → EReal :=
  fun i => ∑ k : Fin 128, a (ix2 (⟨(i 0).val, idx2_lt0 i⟩ : Fin 50000) k) * b (ix2 k (⟨(i 1).val, idx2_lt1 i⟩ : Fin 128))

/-- The payload as one function of the block index. -/
theorem payload1_eq (x0 : Vec Ideal S5000x128 .f32) (x1 : Vec Ideal S128x128 .f32) :
    Gen.k1_pay1 (F := Ideal) x0 x1
      = fun y => ∑ k : Fin 128, x0 (ix2 (⟨(y 0).val, idx2_lt0 y⟩ : Fin 5000) k) * x1 (ix2 k (⟨(y 1).val, idx2_lt1 y⟩ : Fin 128)) := by
  funext y
  obtain ⟨p, q, rfl⟩ : ∃ (p : Fin 5000) (q : Fin 128), y = ix2 p q := ⟨y 0, y 1, eq_ix2 y⟩
  exact payload1_apply x0 x1 p q

/-- The printed index maps over the grid: the row-tiled windows sit at block row `t`, block column 0; the weight's
    window is the whole array at every point. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows `5000·t … 5000·t + 4999` of the array. -/
theorem left_block1 (c : Dev nD) (t : Fin cfg1.N) (x : S5000x128.Idx) (k : S50000x128.Idx)
    (hk0 : (k 0).val = 5000 * t.val + (x 0).val) (hk1 : (k 1).val = (x 1).val) :
    (Gen.iblk1 V c 0 t : Vec Ideal S5000x128 .f32) x = (V c main_v31 : S50000x128.Idx → EReal) k := by
  obtain ⟨e0, e1, -⟩ := index_facts1 t
  unfold Gen.iblk1
  rw [View.read_apply]
  show V c main_v31 _ = V c main_v31 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The right operand's block at every point is the whole array. -/
theorem right_block1 (c : Dev nD) (t : Fin cfg1.N) (x : S128x128.Idx) (k : S128x128.Idx)
    (hk0 : (k 0).val = (x 0).val) (hk1 : (k 1).val = (x 1).val) :
    (Gen.iblk1 V c 1 t : Vec Ideal S128x128 .f32) x = (V c main_v5 : S128x128.Idx → EReal) k := by
  obtain ⟨-, -, e0, e1, -⟩ := index_facts1 t
  unfold Gen.iblk1
  rw [View.read_apply]
  show V c main_v5 _ = V c main_v5 _
  congr 1
  funext a
  apply Fin.ext
  match a with
  | ⟨0, _⟩ => show win1_1.index t 0 * 128 + 1 * (x 0).val = (k 0).val; rw [e0, hk0]; omega
  | ⟨1, _⟩ => show win1_1.index t 1 * 128 + 1 * (x 1).val = (k 1).val; rw [e1, hk1]; omega

/-- What point `t` writes back is block `t` of the product of the arrays the region finds. -/
theorem flushed1_eq (c : Dev nD) (t : Fin cfg1.N) :
    (Gen.dat1 V c).flushed 2 t
      = ((cfg1.win 2).blk t).view.read (Elt Ideal) (rowsTimes1 (V c main_v31) (V c main_v5)) := by
  show (cfg1.win 2).cut (grid1.coords t) ((Gen.dat1 V c).after 2 t) = _
  rw [Gen.after1_2]
  unfold Gen.out1_2
  rw [View.canon_unit_zero Product0.zero_offsets]
  simp only [View.ld_unit_zero (S := S5000x128) Product0.zero_offsets, View.ld_unit_zero (S := S128x128) Product0.zero_offsets]
  rw [payload1_eq]
  obtain ⟨-, -, -, -, e0, e1⟩ := index_facts1 t
  funext j
  rw [View.read_apply]
  show ∑ k : Fin 128, @HMul.hMul EReal EReal EReal instHMul (Gen.iblk1 V c 0 t (ix2 (⟨(j 0).val, _⟩ : Fin 5000) k))
         (Gen.iblk1 V c 1 t (ix2 k (⟨(j 1).val, _⟩ : Fin 128)))
     = ∑ k : Fin 128, @HMul.hMul EReal EReal EReal instHMul
         (V c main_v31 (ix2 (⟨((((cfg1.win 2).blk t).view.emb j) 0).val, _⟩ : Fin 50000) k))
         (V c main_v5 (ix2 k (⟨((((cfg1.win 2).blk t).view.emb j) 1).val, _⟩ : Fin 128)))
  refine Finset.sum_congr rfl fun k _ => ?_
  have hrow : ((((cfg1.win 2).blk t).view.emb j) 0).val = 5000 * t.val + (j 0).val := by
    show win1_2.index t (0 : Fin 2) * 5000 + 1 * (j 0).val = _; rw [e0]; omega
  have hcol : ((((cfg1.win 2).blk t).view.emb j) 1).val = (j 1).val := by
    show win1_2.index t (1 : Fin 2) * 128 + 1 * (j 1).val = _; rw [e1]; omega
  exact congrArg₂ (@HMul.hMul EReal EReal EReal instHMul) (left_block1 V c t _ _ hrow rfl) (right_block1 V c t _ _ rfl hcol)

/-- An index of the output array is in point `t`'s block iff each coordinate is in the block's range on its axis. -/
theorem mem_block1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v32).slice (win1_2.rect t)).set ↔ _
  rw [View.set_slice_whole, Rect.mem_set_unit]
  exact Iff.rfl

/-- Every index of the output array is in some point's block: row `r` belongs to point `r / 5000`. -/
theorem cover1 (i : S50000x128.Idx) :
    ∃ t : Fin cfg1.N, (cfg1.win 2).flush t = true ∧ i ∈ ((cfg1.win 2).blk t).view.set := by
  have hi0 : (i 0).val < 50000 := idx2_lt0 i
  have hi1 : (i 1).val < 128 := idx2_lt1 i
  have hN : cfg1.N = 10 := Gen.N_1
  let t : Fin cfg1.N := ⟨(i 0).val / 5000, by rw [hN]; omega⟩
  have ht : t.val = (i 0).val / 5000 := rfl
  obtain ⟨-, -, -, -, e0, e1⟩ := index_facts1 t
  refine ⟨t, Gen.flush1_2 t, ?_⟩
  rw [mem_block1]
  intro a
  match a with
  | ⟨0, _⟩ => show win1_2.index t (0 : Fin 2) * 5000 ≤ (i 0).val ∧ (i 0).val < win1_2.index t (0 : Fin 2) * 5000 + 5000; rw [e0, ht]; omega
  | ⟨1, _⟩ => show win1_2.index t (1 : Fin 2) * 128 ≤ (i 1).val ∧ (i 1).val < win1_2.index t (1 : Fin 2) * 128 + 128; rw [e1]; omega

/-- The array region 1 leaves is the product of the arrays it finds. -/
theorem final1 (c : Dev nD) :
    (Gen.dat1 (F := Ideal) V c).arrAt 2 cfg1.N = rowsTimes1 (V c main_v31) (V c main_v5) :=
  (Gen.dat1 V c).arrAt_eq_of_cover 2 (rowsTimes1 (V c main_v31) (V c main_v5)) (fun t _ => flushed1_eq V c t) cover1

end Product1

/-- REGION 1, entry by entry: row `n` of the input times column `j` of the weight. -/
theorem region1_value (c : Dev nD) (n : Fin 50000) (j : Fin 128) :
    (Gen.dat1 (F := Ideal) V c).arrAt 2 cfg1.N (ix2 n j)
      = ∑ k : Fin 128, @HMul.hMul EReal EReal EReal instHMul (V c main_v31 (ix2 n k)) (V c main_v5 (ix2 k j)) :=
  (congrFun (Product1.final1 V c) (ix2 n j)).trans rfl

end Cert.HyperConv

end
-- ==== Proof.KernelValue.lean ====
/-
  The idealized kernel's result, entry by entry, as a function of what its two products hold.

  The third region writes, at row n and column j, the sum s(n, j) of the right half of the first product, the segment
  mean over nodes of the gathered rows of the second product, and the second bias, divided by the square root of the sum
  over the row of the squares of s. The first product's entry is the node features' row times a column of the joined weight
  matrix; the second product's entry is the rectified hyperedge features' row times a column of the lower half of the
  second weight matrix.
-/
import proofs.«112294_j10376640987275_2_alg».proof.Proof.KernelWalk
import proofs.«112294_j10376640987275_2_alg».proof.Proof.RegionProducts
import proofs.«112294_j10376640987275_2_alg».proof.Proof.RegionNormalize

set_option maxRecDepth 16384

noncomputable section

namespace Cert.HyperConv

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The first product: the node features times the joined weight matrix. -/
theorem kernel_prod0 (n : Fin 50000) (j : Fin 256) :
    W2 m ρ c (Proc.devRef .tc main_v7) (ix2 n j)
      = ∑ k : Fin 128, @HMul.hMul EReal EReal EReal instHMul (m ((c : Thread nD τ).loc main_arg0) (ix2 n k))
          (joined (m ((c : Thread nD τ).loc main_arg2)) (m ((c : Thread nD τ).loc main_arg4)) (ix2 k j)) := by
  have h := region0_value (V1 m ρ) c n j
  rw [← W2_arr m ρ c 2] at h
  refine h.trans ?_
  show (∑ k : Fin 128, @HMul.hMul EReal EReal EReal instHMul (W1 m ρ c (Proc.devRef .tc main_arg0) (ix2 n k))
      (W1 m ρ c (Proc.devRef .tc main_v6) (ix2 k j))) = _
  rw [at1_x, at1_joined]

/-- The rectified hyperedge features as the kernel computes them. -/
theorem kernel_feats :
    W4 m ρ c (Proc.devRef .tc main_v31)
      = Cert.HyperConv.rectify (addf (Cert.HyperConv.segMean (Cert.HyperConv.edgeIds (m ((c : Thread nD τ).loc main_arg1)))
          (Cert.HyperConv.gatherRows (leftHalf (W2 m ρ c (Proc.devRef .tc main_v7))) (Cert.HyperConv.nodeIds (m ((c : Thread nD τ).loc main_arg1)))))
        (rowsOf (m ((c : Thread nD τ).loc main_arg3)))) :=
  (at4_feats m ρ c).trans (congrArg Cert.HyperConv.rectify (at3_pre m ρ c))

/-- The second product: the rectified hyperedge features times the lower half of the second weight matrix. -/
theorem kernel_prod1 (n : Fin 50000) (j : Fin 128) :
    W5 m ρ c (Proc.devRef .tc main_v32) (ix2 n j)
      = ∑ k : Fin 128, @HMul.hMul EReal EReal EReal instHMul (W4 m ρ c (Proc.devRef .tc main_v31) (ix2 n k))
          (lowerHalf (m ((c : Thread nD τ).loc main_arg4)) (ix2 k j)) := by
  have h := region1_value (V4 m ρ) c n j
  rw [← W5_arr m ρ c 2] at h
  refine h.trans ?_
  show (∑ k : Fin 128, @HMul.hMul EReal EReal EReal instHMul (W4 m ρ c (Proc.devRef .tc main_v31) (ix2 n k))
      (W4 m ρ c (Proc.devRef .tc main_v5) (ix2 k j))) = _
  rw [at4_lower]

/-- The result buffer at an entry. -/
theorem kernel_value (n : Fin 50000) (j : Fin 128) :
    W7 m ρ c (Proc.devRef .tc main_v52) (ix2 n j)
      = Ideal.div
          (rowSumOf (rightHalf (W2 m ρ c (Proc.devRef .tc main_v7)))
            (Cert.HyperConv.segMean (Cert.HyperConv.nodeIds (m ((c : Thread nD τ).loc main_arg1)))
              (Cert.HyperConv.gatherRows (W5 m ρ c (Proc.devRef .tc main_v32)) (Cert.HyperConv.edgeIds (m ((c : Thread nD τ).loc main_arg1)))))
            (oneRow (m ((c : Thread nD τ).loc main_arg5))) n j)
          (Ideal.sqrt (∑ t : Fin 128,
            rowSumOf (rightHalf (W2 m ρ c (Proc.devRef .tc main_v7)))
              (Cert.HyperConv.segMean (Cert.HyperConv.nodeIds (m ((c : Thread nD τ).loc main_arg1)))
                (Cert.HyperConv.gatherRows (W5 m ρ c (Proc.devRef .tc main_v32)) (Cert.HyperConv.edgeIds (m ((c : Thread nD τ).loc main_arg1)))))
              (oneRow (m ((c : Thread nD τ).loc main_arg5))) n t
            * rowSumOf (rightHalf (W2 m ρ c (Proc.devRef .tc main_v7)))
              (Cert.HyperConv.segMean (Cert.HyperConv.nodeIds (m ((c : Thread nD τ).loc main_arg1)))
                (Cert.HyperConv.gatherRows (W5 m ρ c (Proc.devRef .tc main_v32)) (Cert.HyperConv.edgeIds (m ((c : Thread nD τ).loc main_arg1)))))
              (oneRow (m ((c : Thread nD τ).loc main_arg5))) n t)) := by
  have h := region2_value (V6 m ρ) c n j
  rw [← W7_arr m ρ c 3] at h
  refine h.trans ?_
  have hs : ∀ t : Fin 128, rowSum (V6 m ρ) c n t
      = rowSumOf (rightHalf (W2 m ρ c (Proc.devRef .tc main_v7)))
          (Cert.HyperConv.segMean (Cert.HyperConv.nodeIds (m ((c : Thread nD τ).loc main_arg1)))
            (Cert.HyperConv.gatherRows (W5 m ρ c (Proc.devRef .tc main_v32)) (Cert.HyperConv.edgeIds (m ((c : Thread nD τ).loc main_arg1)))))
          (oneRow (m ((c : Thread nD τ).loc main_arg5))) n t := by
    intro t
    show rowSumOf (W6 m ρ c (Proc.devRef .tc main_v9)) (W6 m ρ c (Proc.devRef .tc main_v50)) (W6 m ρ c (Proc.devRef .tc main_v51)) n t = _
    rw [at6_right, at6_mean, at6_bias2]
  simp only [hs]

end Cert.HyperConv

end
-- ==== Proof.FiniteArgs.lean ====
/-
  Finite inputs are real arrays.

  The precondition evaluates, for each float argument x, the conjunction over all entries of |x| < +∞, and
  conjoins the five results. Over the extended reals |x| = max x (-x), and max x (-x) < ⊤ excludes both infinities,
  so every entry of every float argument is the coercion of a real number.
-/
import proofs.«112294_j10376640987275_2_alg».proof.Defs
import proofs.«112294_j10376640987275_2_alg».proof.Proof.RealArr
import Idealize.ShloMosaic.Lib.ReduceAll
import Idealize.ShloMosaic.Lib.ValueIdx

noncomputable section

namespace Cert.HyperConv

open Idealize.ShloMosaic Idealize.SL.Sem

/-- The result shape of a reduction over all axes has exactly one index. -/
instance subsingleton_scalarIdx : Subsingleton Cert.Pre_finite_inputs.S_.Idx :=
  ⟨fun a b => funext fun d => d.elim0⟩

/-- The bit pattern of +∞ in single precision denotes ⊤. -/
theorem ofBits_inf : Ideal.ofBits .f32 0x7F800000#32 = (⊤ : EReal) := by
  simp [Ideal.ofBits, Ideal.ieee]

/-- An extended real whose absolute value max x (-x) is below ⊤ is a real number. -/
theorem exists_real_of_abs_lt_top (x : EReal) (h : max x (-x) < (⊤ : EReal)) : ∃ r : ℝ, x = (r : EReal) := by
  induction x using EReal.rec with
  | bot => simp at h
  | coe r => exact ⟨r, rfl⟩
  | top => simp at h

/-- One argument: if the conjunction over all entries of |a| < +∞ is true, the array is real. -/
theorem isReal_of_all_abs_lt_inf {s : Shape} {axes : List (Fin s.rank)} (a : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf a) (broadcastInDim s ![] bc (constant Cert.Pre_finite_inputs.S_ .f32 0x7F800000#32)))
          (constantI Cert.Pre_finite_inputs.S_ 1 1#1) hr hu j = 1#1) :
    IsReal (a : s.Idx → EReal) := by
  intro i
  have hi := Host.reduce_andi_all _ _ hr hu j e i
  have hlt : max (a i) (-(a i)) < (⊤ : EReal) := by
    have h2 : Ideal.cmp .olt (max (a i) (-(a i))) (Ideal.ofBits .f32 0x7F800000#32) = 1#1 := hi
    rw [ofBits_inf] at h2
    have h3 : BitVec.ofBool (decide (max (a i) (-(a i)) < (⊤ : EReal))) = 1#1 := h2
    by_contra hn
    rw [decide_eq_false hn] at h3
    exact absurd h3 (by decide)
  exact exists_real_of_abs_lt_top (a i) hlt

/-- The precondition over arbitrary arguments: if the printed predicate is true, every float argument is a real array. -/
theorem isReal_of_finite_inputs [Cert.Pre_finite_inputs.Facts]
    (a0 : FVec Ideal Cert.Pre_finite_inputs.S50000x128 .f32) (a1 : IVec Cert.Pre_finite_inputs.S2x400000 32)
    (a2 : FVec Ideal Cert.Pre_finite_inputs.S128x128 .f32) (a3 : FVec Ideal Cert.Pre_finite_inputs.S128 .f32)
    (a4 : FVec Ideal Cert.Pre_finite_inputs.S256x128 .f32) (a5 : FVec Ideal Cert.Pre_finite_inputs.S128 .f32)
    (h : Cert.Pre_finite_inputs.fn (F := Ideal) a0 a1 a2 a3 a4 a5 = (fun _ => 1#1)) :
    IsReal (a0 : Cert.Pre_finite_inputs.S50000x128.Idx → EReal) ∧ IsReal (a2 : Cert.Pre_finite_inputs.S128x128.Idx → EReal)
      ∧ IsReal (a3 : Cert.Pre_finite_inputs.S128.Idx → EReal) ∧ IsReal (a4 : Cert.Pre_finite_inputs.S256x128.Idx → EReal)
      ∧ IsReal (a5 : Cert.Pre_finite_inputs.S128.Idx → EReal) := by
  have h0 := congrFun h ValueIdx.ix0
  dsimp only [Cert.Pre_finite_inputs.fn, Cert.Pre_finite_inputs.fn_part1, andi] at h0
  obtain ⟨h0123, e5⟩ := IntOp.andi_eq_one.1 h0
  obtain ⟨h012, e4⟩ := IntOp.andi_eq_one.1 h0123
  obtain ⟨h01, e3⟩ := IntOp.andi_eq_one.1 h012
  obtain ⟨e0, e2⟩ := IntOp.andi_eq_one.1 h01
  exact ⟨isReal_of_all_abs_lt_inf a0 _ _ _ _ e0, isReal_of_all_abs_lt_inf a2 _ _ _ _ e2,
    isReal_of_all_abs_lt_inf a3 _ _ _ _ e3, isReal_of_all_abs_lt_inf a4 _ _ _ _ e4,
    isReal_of_all_abs_lt_inf a5 _ _ _ _ e5⟩

/-- The certificate's precondition on a memory: every float argument of the kernel holds real numbers, on every device. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    IsReal (m ((c.tc : Thread Cert.KernelIdeal.nD Cert.KernelIdeal.τ).loc Cert.KernelIdeal.main_arg0) : Cert.KernelIdeal.S50000x128.Idx → EReal)
      ∧ IsReal (m ((c.tc : Thread Cert.KernelIdeal.nD Cert.KernelIdeal.τ).loc Cert.KernelIdeal.main_arg2) : Cert.KernelIdeal.S128x128.Idx → EReal)
      ∧ IsReal (m ((c.tc : Thread Cert.KernelIdeal.nD Cert.KernelIdeal.τ).loc Cert.KernelIdeal.main_arg3) : Cert.KernelIdeal.S128.Idx → EReal)
      ∧ IsReal (m ((c.tc : Thread Cert.KernelIdeal.nD Cert.KernelIdeal.τ).loc Cert.KernelIdeal.main_arg4) : Cert.KernelIdeal.S256x128.Idx → EReal)
      ∧ IsReal (m ((c.tc : Thread Cert.KernelIdeal.nD Cert.KernelIdeal.τ).loc Cert.KernelIdeal.main_arg5) : Cert.KernelIdeal.S128.Idx → EReal) :=
  isReal_of_finite_inputs _ _ _ _ _ _ (h c)

end Cert.HyperConv

end
-- ==== Proof.Final.lean ====
/-
  The two programs compute one array.

  Under the precondition every float argument is real. Entry by entry the kernel's result is its row sum divided by the
  root of the row's sum of squares; the row sums are the reference's second dense layer (the commutation of a segment
  mean with a matrix product, twice), and the reference divides the same rows by the same norms.
-/
import proofs.«112294_j10376640987275_2_alg».proof.Proof.Bridge
import proofs.«112294_j10376640987275_2_alg».proof.Proof.KernelValue
import proofs.«112294_j10376640987275_2_alg».proof.Proof.FiniteArgs

set_option maxRecDepth 16384

noncomputable section

namespace Cert.HyperConv

open Cert.KernelIdeal Cert.KernelIdeal.Gen
open Idealize.ShloMosaic Idealize.ShloMosaic.TcCoe Idealize.SL.Sem Idealize.ShloMosaic.ValueIdx

/-- The kernel's result array is the reference's rows, each divided by its Euclidean norm. -/
theorem kernel_result [Cert.Pre_finite_inputs.Facts] (m : (ℓ : Loc nD τ sig) → Buf (Elt Ideal) ℓ) (ρ : Dev nD → PrngReg) (c : Dev nD)
    (hpre : Cert.Pre_KernelIdeal m) :
    W7 m ρ c (Proc.devRef .tc main_v52)
      = Cert.HyperConv.unitRows (Cert.HyperConv.refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))) := by
  obtain ⟨h0, h2, h3, h4, h5⟩ := finite_of_pre m hpre c
  show (W7 m ρ c (Proc.devRef .tc main_v52) : S50000x128.Idx → EReal) = _
  funext i
  obtain ⟨n, j, rfl⟩ : ∃ (n : Fin 50000) (j : Fin 128), i = ix2 n j := ⟨i 0, i 1, eq_ix2 i⟩
  have hs : ∀ t : Fin 128, _ = _ := fun t =>
    rows_eq (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (W2 m ρ c (Proc.devRef .tc main_v7)) (W4 m ρ c (Proc.devRef .tc main_v31)) (W5 m ρ c (Proc.devRef .tc main_v32))
      h0 h2 h3 h4 (kernel_prod0 m ρ c) (kernel_feats m ρ c) (kernel_prod1 m ρ c) n t
  rw [kernel_value, Cert.HyperConv.unitRows_apply]
  simp only [hs]

end Cert.HyperConv

end
-- ==== Proof.lean ====
/-
  The certificate of a hypergraph convolution kernel against its reference.

  The reference averages node features into hyperedges, applies a dense layer with a rectifier, averages the result back
  into nodes, joins it to the node features, applies a second dense layer and normalizes every row. The kernel applies
  both dense layers' matrices to the full tables first and averages afterwards. Averaging (gather rows, add them up per
  id, divide by a count that is a nonzero real) is linear, so for finite inputs the two orders give the same rows; the
  final normalization is the same function of those rows. The three frames are the programs' generated runs; the ideal pass
  rewrote nothing.
-/
import proofs.«112294_j10376640987275_2_alg».proof.Defs
import proofs.«112294_j10376640987275_2_alg».proof.Proof.Gen.Kernel
import proofs.«112294_j10376640987275_2_alg».proof.Proof.Gen.Kernel.Frame
import proofs.«112294_j10376640987275_2_alg».proof.Proof.Gen.KernelIdeal
import proofs.«112294_j10376640987275_2_alg».proof.Proof.Gen.KernelIdeal.Frame
import proofs.«112294_j10376640987275_2_alg».proof.Proof.Gen.ReferenceIdeal
import proofs.«112294_j10376640987275_2_alg».proof.Proof.Gen.ReferenceIdeal.Run
import proofs.«112294_j10376640987275_2_alg».proof.Proof.Gen.Pre_finite_inputs
import proofs.«112294_j10376640987275_2_alg».proof.Proof.KernelRun
import proofs.«112294_j10376640987275_2_alg».proof.Proof.Stages
import proofs.«112294_j10376640987275_2_alg».proof.Proof.Final
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the reference's rows, each divided by its Euclidean norm. -/
theorem algebraic : Cert.algebraic_KernelIdeal_ReferenceIdeal := by
  intro m ρ m' ρ' hpre hagree
  refine ⟨fun c => Cert.KernelIdeal.Gen.W7 m ρ c (Proc.devRef .tc Cert.KernelIdeal.main_v52), Cert.HyperConv.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.HyperConv.ref_value, (hagree c).1, (hagree c).2.1, (hagree c).2.2.1, (hagree c).2.2.2.1, (hagree c).2.2.2.2.1,
    (hagree c).2.2.2.2.2]
  exact (Cert.HyperConv.kernel_result m ρ c hpre).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
